-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x512 : Shape := ⟨3, ![256, 512, 512]⟩
abbrev S262144x128 : Shape := ⟨2, ![262144, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S_ : Shape := ⟨0, ![]⟩

class Facts : Prop where
  bcast_S_S256x512x512 : S_.BroadcastsInDim S256x512x512 (![] : Fin 0 → Fin S256x512x512.rank)
  reducesTo_S256x512x512_S_d0_1_2 : S256x512x512.ReducesTo [0, 1, 2] S_
  h_S_ : 0 < S_.numel
  bcast_S_S262144x128 : S_.BroadcastsInDim S262144x128 (![] : Fin 0 → Fin S262144x128.rank)
  reducesTo_S262144x128_S_d0_1 : S262144x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S256x128 .f32) (main_arg8 : FVec F S128 .f32) (main_arg9 : FVec F S128x64 .f32) (main_arg10 : FVec F S64 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg9
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S128 .f32) (main_arg5 : FVec F S128x256 .f32) (main_arg6 : FVec F S256 .f32) (main_arg7 : FVec F S256x128 .f32) (main_arg8 : FVec F S128 .f32) (main_arg9 : FVec F S128x64 .f32) (main_arg10 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S256x512x512 .f32) (main_arg1 : FVec F S262144x128 .f32) (main_arg2 : FVec F S128 .f32) (main_arg3 : FVec F S128x128 .f32) (main_arg4 : FVec F S128 .f32) (main_arg5 : FVec F S128x256 .f32) (main_arg6 : FVec F S256 .f32) (main_arg7 : FVec F S256x128 .f32) (main_arg8 : FVec F S128 .f32) (main_arg9 : FVec F S128x64 .f32) (main_arg10 : FVec F S64 .f32) (main_arg11 : IVec S256 32) : IVec S_ 1 :=
  let main_v0 : FVec F S256x512x512 .f32 := Host.absf main_arg0
  let main_cst : FVec F S_ .f32 := constant S_ .f32 0x7F800000#32
  let main_v1 : FVec F S256x512x512 .f32 := broadcastInDim S256x512x512 ![] bcast_S_S256x512x512 main_cst
  let main_v2 : IVec S256x512x512 1 := cmpf .olt main_v0 main_v1
  let main_c : IVec S_ 1 := constantI S_ 1 1#1
  let main_v3 : IVec S_ 1 := (fun x v => Host.reduce IntOp.andi x v reducesTo_S256x512x512_S_d0_1_2 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S256x512x512 : Shape := ⟨3, ![256, 512, 512]⟩
abbrev S262144x128 : Shape := ⟨2, ![262144, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S512x512x128 : Shape := ⟨3, ![512, 512, 128]⟩
abbrev S256x1x1 : Shape := ⟨3, ![256, 1, 1]⟩
abbrev S256x64 : Shape := ⟨2, ![256, 64]⟩
abbrev S256x16x512 : Shape := ⟨3, ![256, 16, 512]⟩
abbrev S16x512x128 : Shape := ⟨3, ![16, 512, 128]⟩
abbrev S256x8192 : Shape := ⟨2, ![256, 8192]⟩
abbrev S8192x128 : Shape := ⟨2, ![8192, 128]⟩
abbrev S1x128 : Shape := ⟨2, ![1, 128]⟩
abbrev S256x256 : Shape := ⟨2, ![256, 256]⟩
abbrev S1x256 : Shape := ⟨2, ![1, 256]⟩
abbrev S1x64 : Shape := ⟨2, ![1, 64]⟩

abbrev nBuf : Space → Nat
  | .hbm => 15
  | .vmem => 16
  | .smem => 0
  | _ => 0

abbrev bufTy : (tb : Table) → Fin (tcTables nBuf tb) → BufTy
  | .hbm, ⟨0, _⟩ => ⟨S256x512x512, .f32⟩
  | .hbm, ⟨1, _⟩ => ⟨S262144x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S256, .i32⟩
  | .hbm, ⟨12, _⟩ => ⟨S512x512x128, .f32⟩
  | .hbm, ⟨13, _⟩ => ⟨S256x1x1, .i32⟩
  | .hbm, ⟨14, _⟩ => ⟨S256x64, .f32⟩
  | .local _ .vmem, ⟨0, _⟩ => ⟨S256x1x1, .i32⟩
  | .local _ .vmem, ⟨1, _⟩ => ⟨S256x16x512, .f32⟩
  | .local _ .vmem, ⟨2, _⟩ => ⟨S256x16x512, .f32⟩
  | .local _ .vmem, ⟨3, _⟩ => ⟨S16x512x128, .f32⟩
  | .local _ .vmem, ⟨4, _⟩ => ⟨S16x512x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x256, .f32⟩
  | .local _ .vmem, ⟨9, _⟩ => ⟨S256, .f32⟩
  | .local _ .vmem, ⟨10, _⟩ => ⟨S256x128, .f32⟩
  | .local _ .vmem, ⟨11, _⟩ => ⟨S128, .f32⟩
  | .local _ .vmem, ⟨12, _⟩ => ⟨S128x64, .f32⟩
  | .local _ .vmem, ⟨13, _⟩ => ⟨S64, .f32⟩
  | .local _ .vmem, ⟨14, _⟩ => ⟨S256x64, .f32⟩
  | .local _ .vmem, ⟨15, _⟩ => ⟨S256x128, .f32⟩
  | _, _ => ⟨S256x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v30 : BitVec 1 := Scalar.cmpi .eq arg0 c31_i32
  let v31 : BitVec 32 := Scalar.extui v30
  let c0_i32_14 : BitVec 32 := 0#32
  let v32 : BitVec 1 := Scalar.cmpi .ne v31 c0_i32_14
  v32

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

class Facts₀ : Prop where
  shapeCasts_S262144x128_S512x512x128 : S262144x128.ShapeCasts S512x512x128
  shapeCasts_S256_S256x1x1 : S256.ShapeCasts S256x1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x1x1_S256x1x1_0_0_0 : ∀ a, (![0, 0, 0] : Fin 3 → Nat) a + S256x1x1.size a ≤ S256x1x1.size a
  h_S256x1x1 : 0 < S256x1x1.numel
  shapeCasts_S256x1x1_S256x1x1 : S256x1x1.ShapeCasts S256x1x1
  iota_S256x16x512_d1_w32 : S256x16x512.Iotas .tc 32 [1]
  iota_S256x16x512_d2_w32 : S256x16x512.Iotas .tc 32 [2]
  broadcasts_S256x1x1_S256x16x512 : S256x1x1.Broadcasts S256x16x512
  inb_S256x16x512_S256x16x512_0_0_0 : ∀ a, (![0, 0, 0] : Fin 3 → Nat) a + S256x16x512.size a ≤ S256x16x512.size a
  h_S256x16x512 : 0 < S256x16x512.numel
  shapeCasts_S256x16x512_S256x8192 : S256x16x512.ShapeCasts S256x8192
  bitsLt_bf16_f32 : FTy.bits .bf16 < FTy.bits .f32
  inb_S16x512x128_S16x512x128_0_0_0 : ∀ a, (![0, 0, 0] : Fin 3 → Nat) a + S16x512x128.size a ≤ S16x512x128.size a
  h_S16x512x128 : 0 < S16x512x128.numel
  shapeCasts_S16x512x128_S16x512x128 : S16x512x128.ShapeCasts S16x512x128
  shapeCasts_S16x512x128_S8192x128 : S16x512x128.ShapeCasts S8192x128
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  inb_S128x128_S128x128_0_0 : ∀ a, (![0, 0] : Fin 2 → Nat) a + S128x128.size a ≤ S128x128.size a
  h_S128x128 : 0 < S128x128.numel
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  dot_S256x8192_S8192x128_S256x128_1_0_0_1_n_n_wf : DotDims.WF S256x8192 S8192x128 S256x128 [1] [0] [0] [1] [] []
  dot_S256x128_S128x128_S256x128_1_0_0_1_n_n_wf : DotDims.WF S256x128 S128x128 S256x128 [1] [0] [0] [1] [] []
  dot_S256x128_S128x256_S256x256_1_0_0_1_n_n_wf : DotDims.WF S256x128 S128x256 S256x256 [1] [0] [0] [1] [] []
  dot_S256x256_S256x128_S256x128_1_0_0_1_n_n_wf : DotDims.WF S256x256 S256x128 S256x128 [1] [0] [0] [1] [] []
  dot_S256x128_S128x64_S256x64_1_0_0_1_n_n_wf : DotDims.WF S256x128 S128x64 S256x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1x1.size a ≤ S256x1x1.size a
  hwx0_0 : ∀ i : grid0.Coords, EltTy.bits .i32 = 32 ∨ (Rect.block (s := S256x1x1) S256x1x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16x512.size a ≤ S256x512x512.size a
  hwx0_1 : ∀ i : grid0.Coords, EltTy.bits .f32 = 32 ∨ (Rect.block (s := S256x512x512) S256x16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512x128.size a ≤ S512x512x128.size a
  hwx0_2 : ∀ i : grid0.Coords, EltTy.bits .f32 = 32 ∨ (Rect.block (s := S512x512x128) S16x512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S128x64.size a
  hwx0_10 : ∀ i : grid0.Coords, EltTy.bits .f32 = 32 ∨ (Rect.block (s := S128x64) S128x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x64.size a ≤ S256x64.size a
  hwx0_12 : ∀ i : grid0.Coords, EltTy.bits .f32 = 32 ∨ (Rect.block (s := S256x64) S256x64.size (cc0_transform_12 i) (hinb0_12 i)).WholeWords (EltTy.packing .f32)

variable [Facts₀]

def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf

abbrev win0_0 : Pipeline.Window sig grid0 :=
  Pipeline.Window.ofSpec (Memref.whole main_v1) S256x1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v2) S256x64.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

class Facts : Prop extends Facts₀ where

variable [Facts]
-- ==== ReferenceIdeal.lean ====
abbrev S256x512x512 : Shape := ⟨3, ![256, 512, 512]⟩
abbrev S262144x128 : Shape := ⟨2, ![262144, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S512 : Shape := ⟨1, ![512]⟩
abbrev S1x512 : Shape := ⟨2, ![1, 512]⟩
abbrev S256x1 : Shape := ⟨2, ![256, 1]⟩
abbrev S256x512 : Shape := ⟨2, ![256, 512]⟩
abbrev S256x512x1 : Shape := ⟨3, ![256, 512, 1]⟩
abbrev S256x1x512 : Shape := ⟨3, ![256, 1, 512]⟩
abbrev S_ : Shape := ⟨0, ![]⟩
abbrev S256x262144 : Shape := ⟨2, ![256, 262144]⟩
abbrev S1x128 : Shape := ⟨2, ![1, 128]⟩
abbrev S256x256 : Shape := ⟨2, ![256, 256]⟩
abbrev S1x256 : Shape := ⟨2, ![1, 256]⟩
abbrev S256x64 : Shape := ⟨2, ![256, 64]⟩
abbrev S1x64 : Shape := ⟨2, ![1, 64]⟩

abbrev nBuf : Space → Nat
  | .hbm => 59
  | .vmem => 0
  | .smem => 0
  | _ => 0

abbrev bufTy : (tb : Table) → Fin (tcTables nBuf tb) → BufTy
  | .hbm, ⟨0, _⟩ => ⟨S256x512x512, .f32⟩
  | .hbm, ⟨1, _⟩ => ⟨S262144x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S256, .i32⟩
  | .hbm, ⟨12, _⟩ => ⟨S512, .i32⟩
  | .hbm, ⟨13, _⟩ => ⟨S1x512, .i32⟩
  | .hbm, ⟨14, _⟩ => ⟨S256x1, .i32⟩
  | .hbm, ⟨15, _⟩ => ⟨S256x512, .i32⟩
  | .hbm, ⟨16, _⟩ => ⟨S256x512, .i32⟩
  | .hbm, ⟨17, _⟩ => ⟨S256x512, .i1⟩
  | .hbm, ⟨18, _⟩ => ⟨S256x512x1, .i1⟩
  | .hbm, ⟨19, _⟩ => ⟨S256x1x512, .i1⟩
  | .hbm, ⟨20, _⟩ => ⟨S256x512x512, .i1⟩
  | .hbm, ⟨21, _⟩ => ⟨S256x512x512, .i1⟩
  | .hbm, ⟨22, _⟩ => ⟨S256x512x512, .i1⟩
  | .hbm, ⟨23, _⟩ => ⟨S_, .f32⟩
  | .hbm, ⟨24, _⟩ => ⟨S256x512x512, .f32⟩
  | .hbm, ⟨25, _⟩ => ⟨S256x512x512, .f32⟩
  | .hbm, ⟨26, _⟩ => ⟨S256x262144, .f32⟩
  | .hbm, ⟨27, _⟩ => ⟨S256x128, .f32⟩
  | .hbm, ⟨28, _⟩ => ⟨S1x128, .f32⟩
  | .hbm, ⟨29, _⟩ => ⟨S256x128, .f32⟩
  | .hbm, ⟨30, _⟩ => ⟨S256x128, .f32⟩
  | .hbm, ⟨31, _⟩ => ⟨S_, .f32⟩
  | .hbm, ⟨32, _⟩ => ⟨S256x128, .f32⟩
  | .hbm, ⟨33, _⟩ => ⟨S256x128, .f32⟩
  | .hbm, ⟨34, _⟩ => ⟨S256x128, .f32⟩
  | .hbm, ⟨35, _⟩ => ⟨S1x128, .f32⟩
  | .hbm, ⟨36, _⟩ => ⟨S256x128, .f32⟩
  | .hbm, ⟨37, _⟩ => ⟨S256x128, .f32⟩
  | .hbm, ⟨38, _⟩ => ⟨S_, .f32⟩
  | .hbm, ⟨39, _⟩ => ⟨S256x128, .f32⟩
  | .hbm, ⟨40, _⟩ => ⟨S256x128, .f32⟩
  | .hbm, ⟨41, _⟩ => ⟨S256x256, .f32⟩
  | .hbm, ⟨42, _⟩ => ⟨S1x256, .f32⟩
  | .hbm, ⟨43, _⟩ => ⟨S256x256, .f32⟩
  | .hbm, ⟨44, _⟩ => ⟨S256x256, .f32⟩
  | .hbm, ⟨45, _⟩ => ⟨S_, .f32⟩
  | .hbm, ⟨46, _⟩ => ⟨S256x256, .f32⟩
  | .hbm, ⟨47, _⟩ => ⟨S256x256, .f32⟩
  | .hbm, ⟨48, _⟩ => ⟨S256x128, .f32⟩
  | .hbm, ⟨49, _⟩ => ⟨S1x128, .f32⟩
  | .hbm, ⟨50, _⟩ => ⟨S256x128, .f32⟩
  | .hbm, ⟨51, _⟩ => ⟨S256x128, .f32⟩
  | .hbm, ⟨52, _⟩ => ⟨S_, .f32⟩
  | .hbm, ⟨53, _⟩ => ⟨S256x128, .f32⟩
  | .hbm, ⟨54, _⟩ => ⟨S256x128, .f32⟩
  | .hbm, ⟨55, _⟩ => ⟨S256x64, .f32⟩
  | .hbm, ⟨56, _⟩ => ⟨S1x64, .f32⟩
  | .hbm, ⟨57, _⟩ => ⟨S256x64, .f32⟩
  | .hbm, ⟨58, _⟩ => ⟨S256x64, .f32⟩
  | _, _ => ⟨S256x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_cst : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call2_cst : Ref sig .tc := ⟨.hbm, 38, rfl⟩
abbrev main_call2_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call3_cst : Ref sig .tc := ⟨.hbm, 45, rfl⟩
abbrev main_call3_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call4_cst : Ref sig .tc := ⟨.hbm, 52, rfl⟩
abbrev main_call4_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S256_S256x1_0 : S256.BroadcastsInDim S256x1 (![0] : Fin 1 → Fin S256x1.rank)
  bcast_S1x512_S256x512_0_1 : S1x512.BroadcastsInDim S256x512 (![0, 1] : Fin 2 → Fin S256x512.rank)
  bcast_S256x1_S256x512_0_1 : S256x1.BroadcastsInDim S256x512 (![0, 1] : Fin 2 → Fin S256x512.rank)
  bcast_S256x512_S256x512x1_0_1 : S256x512.BroadcastsInDim S256x512x1 (![0, 1] : Fin 2 → Fin S256x512x1.rank)
  bcast_S256x512_S256x1x512_0_2 : S256x512.BroadcastsInDim S256x1x512 (![0, 2] : Fin 2 → Fin S256x1x512.rank)
  bcast_S256x512x1_S256x512x512_0_1_2 : S256x512x1.BroadcastsInDim S256x512x512 (![0, 1, 2] : Fin 3 → Fin S256x512x512.rank)
  bcast_S256x1x512_S256x512x512_0_1_2 : S256x1x512.BroadcastsInDim S256x512x512 (![0, 1, 2] : Fin 3 → Fin S256x512x512.rank)
  bcast_S_S256x512x512 : S_.BroadcastsInDim S256x512x512 (![] : Fin 0 → Fin S256x512x512.rank)
  shapeCasts_S256x512x512_S256x262144 : S256x512x512.ShapeCasts S256x262144
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  dot_S256x262144_S262144x128_S256x128_1_0_0_1_n_n_wf : DotDims.WF S256x262144 S262144x128 S256x128 [1] [0] [0] [1] [] []
  dot_S256x128_S128x128_S256x128_1_0_0_1_n_n_wf : DotDims.WF S256x128 S128x128 S256x128 [1] [0] [0] [1] [] []
  dot_S256x128_S128x256_S256x256_1_0_0_1_n_n_wf : DotDims.WF S256x128 S128x256 S256x256 [1] [0] [0] [1] [] []
  dot_S256x256_S256x128_S256x128_1_0_0_1_n_n_wf : DotDims.WF S256x256 S256x128 S256x128 [1] [0] [0] [1] [] []
  dot_S256x128_S128x64_S256x64_1_0_0_1_n_n_wf : DotDims.WF S256x128 S128x64 S256x64 [1] [0] [0] [1] [] []

variable [Facts₀]

def dot_S256x262144_S262144x128_S256x128_1_0_0_1_n_n : DotDims S256x262144 S262144x128 S256x128 where
  lhsContracting := [1]
  rhsContracting := [0]
  lhsNonContracting := [0]
  rhsNonContracting := [1]
  lhsBatch := []
  rhsBatch := []
  wf := dot_S256x262144_S262144x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf

class Facts : Prop extends Facts₀ where

variable [Facts]
-- ==== Proof.Spec.lean ====
/-
  The result both programs compute, as one function of the argument arrays on the extended reals.

  For batch entry b the matrix x[b] is kept inside the leading corner of side sizes[b] and replaced by zero outside:
  entry (r, c) is kept when r < sizes[b] and c < sizes[b], both compared as signed 32-bit integers. The masked matrix is
  read as a row of 262144 numbers, position d = 512 r + c, and contracted against the 262144 rows of W1. Four affine
  layers with max(., 0) between them follow, and a last affine layer.

  The same first contraction can be taken 8192 positions at a time: the sum over d < 262144 is the sum over the 32
  groups t of the sums over the positions 8192 t + k, k < 8192, because addition on the extended reals is commutative
  and associative.
-/
import Idealize.ShloMosaic.PureOps.Ideal
import Idealize.ShloMosaic.PureOps.Ideal.Laws
import Idealize.ShloMosaic.Lib.ValueIdx

open scoped BigOperators

noncomputable section

namespace Cert.Spec

open Idealize.ShloMosaic Idealize.ShloMosaic.ValueIdx

/-- The zero word of the 32-bit float format, read as an extended real. -/
abbrev z32 : EReal := Ideal.ofBits .f32 0x00000000#32

theorem z32_eq : z32 = 0 := Ideal.ofBits_zero_f32

/-- Whether row `r`, column `c` lies inside the corner of side `s`: both numbers below `s` as signed 32-bit integers. -/
def keep (s : BitVec 32) (r c : ℕ) : BitVec 1 :=
  IntOp.andi (IntOp.cmpi .slt (BitVec.ofNat 32 r) s) (IntOp.cmpi .slt (BitVec.ofNat 32 c) s)

/-- Entry `(b, r, c)` of the masked input: the entry of `x` inside the corner, zero outside. -/
def masked (x : (⟨3, ![256, 512, 512]⟩ : Shape).Idx → EReal) (sz : (⟨1, ![256]⟩ : Shape).Idx → BitVec 32)
    (b : Fin 256) (r c : Fin 512) : EReal :=
  Scalar.select (keep (sz (ix1 b)) r.val c.val) (x (ix3 b r c)) z32

/-- The row of flattened position `d = 512 r + c`. -/
def rowOf (d : Fin 262144) : Fin 512 := ⟨d.val / 512, by have := d.isLt; omega⟩
/-- The column of flattened position `d = 512 r + c`. -/
def colOf (d : Fin 262144) : Fin 512 := ⟨d.val % 512, Nat.mod_lt _ (by decide)⟩

/-- One term of the first contraction: masked entry at position `d` of batch entry `b`, times `W1[d, j]`. -/
def term (x : (⟨3, ![256, 512, 512]⟩ : Shape).Idx → EReal) (w1 : (⟨2, ![262144, 128]⟩ : Shape).Idx → EReal)
    (sz : (⟨1, ![256]⟩ : Shape).Idx → BitVec 32) (b : Fin 256) (j : Fin 128) (d : Fin 262144) : EReal :=
  masked x sz b (rowOf d) (colOf d) * w1 (ix2 d j)

/-- The first contraction: the masked, flattened input against `W1`. -/
def hidden (x : (⟨3, ![256, 512, 512]⟩ : Shape).Idx → EReal) (w1 : (⟨2, ![262144, 128]⟩ : Shape).Idx → EReal)
    (sz : (⟨1, ![256]⟩ : Shape).Idx → BitVec 32) : (⟨2, ![256, 128]⟩ : Shape).Idx → EReal :=
  fun i => ∑ d : Fin 262144, term x w1 sz (i 0) (i 1) d

/-- Position `k` of group `t` is a position below 262144. -/
theorem pos_lt (t : Fin 32) (k : Fin 8192) : 8192 * t.val + k.val < 262144 := by
  have := t.isLt; have := k.isLt; omega

/-- The part of the first contraction that group `t` of 8192 positions contributes. -/
def groupPart (x : (⟨3, ![256, 512, 512]⟩ : Shape).Idx → EReal) (w1 : (⟨2, ![262144, 128]⟩ : Shape).Idx → EReal)
    (sz : (⟨1, ![256]⟩ : Shape).Idx → BitVec 32) (t : Fin 32) (b : Fin 256) (j : Fin 128) : EReal :=
  ∑ k : Fin 8192, term x w1 sz b j ⟨8192 * t.val + k.val, pos_lt t k⟩

/-! ## The layers after the first contraction -/

/-- Adding a bias row to every row of a matrix. -/
def addBias {A N : ℕ} (h : (⟨2, ![A, N]⟩ : Shape).Idx → EReal) (b : (⟨1, ![N]⟩ : Shape).Idx → EReal) :
    (⟨2, ![A, N]⟩ : Shape).Idx → EReal :=
  fun i => h i + b (ix1 (i 1))

/-- The matrix product. -/
def mm {A K N : ℕ} (h : (⟨2, ![A, K]⟩ : Shape).Idx → EReal) (W : (⟨2, ![K, N]⟩ : Shape).Idx → EReal) :
    (⟨2, ![A, N]⟩ : Shape).Idx → EReal :=
  fun i => ∑ k : Fin K, h (ix2 (i 0) k) * W (ix2 k (i 1))

/-- The larger of each entry and zero. -/
def relu {S : Shape} (h : S.Idx → EReal) : S.Idx → EReal := fun i => max (h i) z32

/-- Everything after the first contraction: its bias and max(., 0), three more layers of the same kind, a last affine layer. -/
def tail (acc : (⟨2, ![256, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (wr1 : (⟨2, ![128, 256]⟩ : Shape).Idx → EReal) (br1 : (⟨1, ![256]⟩ : Shape).Idx → EReal)
    (wr2 : (⟨2, ![256, 128]⟩ : Shape).Idx → EReal) (br2 : (⟨1, ![128]⟩ : Shape).Idx → EReal)
    (wr3 : (⟨2, ![128, 64]⟩ : Shape).Idx → EReal) (br3 : (⟨1, ![64]⟩ : Shape).Idx → EReal) :
    (⟨2, ![256, 64]⟩ : Shape).Idx → EReal :=
  addBias (mm (relu (addBias (mm (relu (addBias (mm (relu (addBias (mm (relu (addBias acc b1)) w2) b2)) wr1) br1)) wr2) br2)) wr3) br3

/-- The whole result, as a function of the twelve arguments in the programs' order. -/
def G (x : (⟨3, ![256, 512, 512]⟩ : Shape).Idx → EReal) (w1 : (⟨2, ![262144, 128]⟩ : Shape).Idx → EReal)
    (b1 : (⟨1, ![128]⟩ : Shape).Idx → EReal)
    (w2 : (⟨2, ![128, 128]⟩ : Shape).Idx → EReal) (b2 : (⟨1, ![128]⟩ : Shape).Idx → EReal)
    (wr1 : (⟨2, ![128, 256]⟩ : Shape).Idx → EReal) (br1 : (⟨1, ![256]⟩ : Shape).Idx → EReal)
    (wr2 : (⟨2, ![256, 128]⟩ : Shape).Idx → EReal) (br2 : (⟨1, ![128]⟩ : Shape).Idx → EReal)
    (wr3 : (⟨2, ![128, 64]⟩ : Shape).Idx → EReal) (br3 : (⟨1, ![64]⟩ : Shape).Idx → EReal)
    (sz : (⟨1, ![256]⟩ : Shape).Idx → BitVec 32) : (⟨2, ![256, 64]⟩ : Shape).Idx → EReal :=
  tail (hidden x w1 sz) b1 w2 b2 wr1 br1 wr2 br2 wr3 br3

end Cert.Spec

end
-- ==== Proof.LibBlockSum.lean ====
/-
  Sums over a range cut into equal blocks.

  The numbers below `A * B` are the numbers `B * t + r` with `t < A` and `r < B`, each once: a sum over them is the
  double sum over the block `t` and the position `r` inside the block. A sum over triples is the triple sum.
-/
import Mathlib.Algebra.BigOperators.Fin
import Mathlib.Logic.Equiv.Fin.Basic

open scoped BigOperators

namespace Cert.BlockSum

variable {M : Type*} [AddCommMonoid M]

/-- Position `r` of block `t` lies below `A * B`. -/
theorem blk_lt {A B : ℕ} (t : Fin A) (r : Fin B) : B * t.val + r.val < A * B :=
  calc B * t.val + r.val < B * t.val + B := Nat.add_lt_add_left r.isLt _
    _ = B * (t.val + 1) := (Nat.mul_succ _ _).symm
    _ ≤ B * A := Nat.mul_le_mul_left B t.isLt
    _ = A * B := Nat.mul_comm _ _

/-- A sum over the numbers below `N = A * B` is the double sum over blocks and positions. -/
theorem sum_fin_blocks {A B N : ℕ} (hN : N = A * B) (f : Fin N → M) :
    ∑ j, f j = ∑ t : Fin A, ∑ r : Fin B, f ⟨B * t.val + r.val, hN ▸ blk_lt t r⟩ := by
  subst hN
  rw [← Equiv.sum_comp finProdFinEquiv f, Fintype.sum_prod_type]
  refine Finset.sum_congr rfl fun t _ => Finset.sum_congr rfl fun r _ => congrArg f (Fin.ext ?_)
  show r.val + B * t.val = B * t.val + r.val
  exact Nat.add_comm _ _

/-- A sum over triples is the triple sum. -/
theorem sum_triple {α β γ : Type*} [Fintype α] [Fintype β] [Fintype γ] (f : α × β × γ → M) :
    ∑ q, f q = ∑ x, ∑ y, ∑ z, f (x, y, z) := by
  rw [Fintype.sum_prod_type]
  exact Finset.sum_congr rfl fun x _ => Fintype.sum_prod_type _

end Cert.BlockSum
-- ==== Proof.SpecLaws.lean ====
/-
  The two arrangements of the first contraction agree.

  The 262144 flattened positions are the numbers 8192 t + k with t < 32 and k < 8192, each once, so the sum over all
  positions is the sum over the 32 groups of each group's part. A total that starts at zero and adds the 32 parts one
  after the other is that same sum.
-/
import proofs.«101094_j88622355186251_2_alg».proof.Proof.Spec
import proofs.«101094_j88622355186251_2_alg».proof.Proof.LibBlockSum

open scoped BigOperators

noncomputable section

namespace Cert.Spec

open Idealize.ShloMosaic Idealize.ShloMosaic.ValueIdx

/-- The first contraction is the sum of its 32 group parts. -/
theorem hidden_groups (x : (⟨3, ![256, 512, 512]⟩ : Shape).Idx → EReal) (w1 : (⟨2, ![262144, 128]⟩ : Shape).Idx → EReal)
    (sz : (⟨1, ![256]⟩ : Shape).Idx → BitVec 32) (b : Fin 256) (j : Fin 128) :
    hidden x w1 sz (ix2 b j) = ∑ t : Fin 32, groupPart x w1 sz t b j :=
  Cert.BlockSum.sum_fin_blocks (A := 32) (B := 8192) (N := 262144) rfl (fun d => term x w1 sz b j d)

/-- Zero, plus the first 31 summands, plus the 32nd, is the sum of all 32. -/
theorem total_eq (S : ℕ → EReal) : z32 + ∑ s ∈ Finset.range 31, S s + S 31 = ∑ t : Fin 32, S t.val := by
  rw [z32_eq, zero_add, ← Finset.sum_range_succ (fun s => S s) 31, Finset.sum_range]

end Cert.Spec

end
-- ==== Proof.KernelPieces.lean ====
/-
  What one run of the kernel body leaves behind, case by case, as values.

  The body runs in one of three ways. At the first grid step it stores the zero block into the accumulator, reads it
  back, and stores the step's update of it. At a middle step it stores the step's update of what the accumulator held.
  At the last step it does the same and then stores, into the result block, the remaining layers applied to the
  accumulator it has just written. Every load reads a whole buffer, and every store covers its whole buffer, so what
  each buffer ends holding is the last value stored into it, as a function of the buffers' contents before the body.
-/
import proofs.«101094_j88622355186251_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A middle step leaves in the accumulator the step's update of what it held. -/
theorem scratch_B (c : Dev nD) (i : grid0.Coords) (arg1 : Memref sig .tc .vmem S256x1x1 .i32) (harg1 : arg1.IsWhole) (arg2 : Memref sig .tc .vmem S256x16x512 .f32) (harg2 : arg2.IsWhole) (arg3 : Memref sig .tc .vmem S16x512x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x256 .f32) (harg7 : arg7.IsWhole) (arg8 : Memref sig .tc .vmem S256 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x128 .f32) (harg14 : arg14.IsWhole) (hc0 : ¬cond0_0 i) (hc1 : ¬cond0_1 i)
    (x0 : Vec F S256x1x1 .i32) (x1 : Vec F S256x16x512 .f32) (x2 : Vec F S16x512x128 .f32) (x3 : Vec F S128 .f32) (x4 : Vec F S128x128 .f32) (x5 : Vec F S128 .f32) (x6 : Vec F S128x256 .f32) (x7 : Vec F S256 .f32) (x8 : Vec F S256x128 .f32) (x9 : Vec F S128 .f32) (x10 : Vec F S128x64 .f32) (x11 : Vec F S64 .f32) (xs0 : Vec F S256x128 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0 = k0_pay2 i x0 x1 x2 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0)]
  unfold kernelRun0_B
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, View.ld_unit_zero (S := S256x1x1) hz3, View.ld_unit_zero (S := S256x16x512) hz3, View.ld_unit_zero (S := S16x512x128) hz3, View.ld_unit_zero (S := S256x128) hz2, View.ld_unit_zero (S := S128) hz1, View.ld_unit_zero (S := S128x128) hz2, View.ld_unit_zero (S := S128x256) hz2, View.ld_unit_zero (S := S256) hz1, View.ld_unit_zero (S := S128x64) hz2, View.ld_unit_zero (S := S64) hz1]

/-- The first step leaves in the accumulator the step's update of the zero block it stored first. -/
theorem scratch_A (c : Dev nD) (i : grid0.Coords) (arg1 : Memref sig .tc .vmem S256x1x1 .i32) (harg1 : arg1.IsWhole) (arg2 : Memref sig .tc .vmem S256x16x512 .f32) (harg2 : arg2.IsWhole) (arg3 : Memref sig .tc .vmem S16x512x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x256 .f32) (harg7 : arg7.IsWhole) (arg8 : Memref sig .tc .vmem S256 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x128 .f32) (harg14 : arg14.IsWhole) (hc0 : cond0_0 i) (hc1 : ¬cond0_1 i)
    (x0 : Vec F S256x1x1 .i32) (x1 : Vec F S256x16x512 .f32) (x2 : Vec F S16x512x128 .f32) (x3 : Vec F S128 .f32) (x4 : Vec F S128x128 .f32) (x5 : Vec F S128 .f32) (x6 : Vec F S128x256 .f32) (x7 : Vec F S256 .f32) (x8 : Vec F S256x128 .f32) (x9 : Vec F S128 .f32) (x10 : Vec F S128x64 .f32) (x11 : Vec F S64 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 = k0_pay2 i x0 x1 x2 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11)]
  unfold kernelRun0_A
  dsimp only
  sl_unfold_words
  rw [View.canon_cons_unit_zero (S := S256x128) hz2, View.readCov_unit_zero (S := S256x128) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, View.ld_unit_zero (S := S256x1x1) hz3, View.ld_unit_zero (S := S256x16x512) hz3, View.ld_unit_zero (S := S16x512x128) hz3, View.ld_unit_zero (S := S256x128) hz2, View.ld_unit_zero (S := S128) hz1, View.ld_unit_zero (S := S128x128) hz2, View.ld_unit_zero (S := S128x256) hz2, View.ld_unit_zero (S := S256) hz1, View.ld_unit_zero (S := S128x64) hz2, View.ld_unit_zero (S := S64) hz1]

/-- The last step leaves in the accumulator the step's update of what it held, as a middle step does. -/
theorem scratch_C (c : Dev nD) (i : grid0.Coords) (arg1 : Memref sig .tc .vmem S256x1x1 .i32) (harg1 : arg1.IsWhole) (arg2 : Memref sig .tc .vmem S256x16x512 .f32) (harg2 : arg2.IsWhole) (arg3 : Memref sig .tc .vmem S16x512x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x256 .f32) (harg7 : arg7.IsWhole) (arg8 : Memref sig .tc .vmem S256 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x128 .f32) (harg14 : arg14.IsWhole) (hc0 : ¬cond0_0 i) (hc1 : cond0_1 i)
    (x0 : Vec F S256x1x1 .i32) (x1 : Vec F S256x16x512 .f32) (x2 : Vec F S16x512x128 .f32) (x3 : Vec F S128 .f32) (x4 : Vec F S128x128 .f32) (x5 : Vec F S128 .f32) (x6 : Vec F S128x256 .f32) (x7 : Vec F S256 .f32) (x8 : Vec F S256x128 .f32) (x9 : Vec F S128 .f32) (x10 : Vec F S128x64 .f32) (x11 : Vec F S64 .f32) (xs0 : Vec F S256x128 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0 = k0_pay2 i x0 x1 x2 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, View.ld_unit_zero (S := S256x1x1) hz3, View.ld_unit_zero (S := S256x16x512) hz3, View.ld_unit_zero (S := S16x512x128) hz3, View.ld_unit_zero (S := S256x128) hz2, View.ld_unit_zero (S := S128) hz1, View.ld_unit_zero (S := S128x128) hz2, View.ld_unit_zero (S := S128x256) hz2, View.ld_unit_zero (S := S256) hz1, View.ld_unit_zero (S := S128x64) hz2, View.ld_unit_zero (S := S64) hz1]

/-- The last step leaves in the result block the remaining layers applied to the accumulator it has just written. -/
theorem out_C (c : Dev nD) (i : grid0.Coords) (arg1 : Memref sig .tc .vmem S256x1x1 .i32) (harg1 : arg1.IsWhole) (arg2 : Memref sig .tc .vmem S256x16x512 .f32) (harg2 : arg2.IsWhole) (arg3 : Memref sig .tc .vmem S16x512x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x256 .f32) (harg7 : arg7.IsWhole) (arg8 : Memref sig .tc .vmem S256 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128x64 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x128 .f32) (harg14 : arg14.IsWhole) (hc0 : ¬cond0_0 i) (hc1 : cond0_1 i)
    (x0 : Vec F S256x1x1 .i32) (x1 : Vec F S256x16x512 .f32) (x2 : Vec F S16x512x128 .f32) (x3 : Vec F S128 .f32) (x4 : Vec F S128x128 .f32) (x5 : Vec F S128 .f32) (x6 : Vec F S128x256 .f32) (x7 : Vec F S256 .f32) (x8 : Vec F S256x128 .f32) (x9 : Vec F S128 .f32) (x10 : Vec F S128x64 .f32) (x11 : Vec F S64 .f32) (xs0 : Vec F S256x128 .f32) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0
      = k0_pay3 (k0_pay4 (k0_pay2 i x0 x1 x2 xs0) x3 x4 x5 x6 x7 x8 x9) x10 x11 := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 x11 xs0)]
  unfold kernelRun0_C
  dsimp only
  sl_unfold_words
  rw [View.canon_unit_zero hz2, View.readCov_unit_zero (S := S256x128) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg14.read_unread, View.ld_unit_zero (S := S256x1x1) hz3, View.ld_unit_zero (S := S256x16x512) hz3, View.ld_unit_zero (S := S16x512x128) hz3, View.ld_unit_zero (S := S256x128) hz2, View.ld_unit_zero (S := S128) hz1, View.ld_unit_zero (S := S128x128) hz2, View.ld_unit_zero (S := S128x256) hz2, View.ld_unit_zero (S := S256) hz1, View.ld_unit_zero (S := S128x64) hz2, View.ld_unit_zero (S := S64) hz1]

end Cert.KernelIdeal.Pieces

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.LibLayout3.lean ====
/-
  Four layout operations on rank-three arrays, read at an index.

  Casting `[A, B, K]` to `[M, K]` with `M = A * B` merges the two leading axes: row `a * B + b` of the result is row
  `(a, b)` of the operand, both having row-major position `(a * B + b) * K + k`. Casting back splits them.
  Casting `[A, B]` to `[A, B, 1]` appends a unit axis: entry `(a, b, 0)` is entry `(a, b)`.
  Broadcasting `[A, B, 1]` to `[A, B, C]` copies entry `(a, b, 0)` along the last axis.
-/
import Idealize.ShloMosaic.Lib.Pipeline.Value
import Idealize.ShloMosaic.Lib.ValueIdx

namespace Cert.Layout3

open Idealize.ShloMosaic Idealize.ShloMosaic.ValueIdx

variable {α : Type}

/-- `[A, B, K]` cast to `[M, K]`: at row `q = a * B + b` and column `k`, the operand at `(a, b, k)`. -/
theorem shapeCast_abk_mk_apply {A B K M : ℕ} (x : (⟨3, ![A, B, K]⟩ : Shape).Idx → α)
    (h : (⟨3, ![A, B, K]⟩ : Shape).ShapeCasts ⟨2, ![M, K]⟩) (a : Fin A) (b : Fin B) (k : Fin K) (q : Fin M)
    (hq : q.val = a.val * B + b.val) : shapeCast ⟨2, ![M, K]⟩ x h (ix2 q k) = x (ix3 a b k) :=
  shapeCast_apply x h _ _ (by
    rw [Shape.rowMajor_val_three, Shape.rowMajor_val_two]
    show (a.val * B + b.val) * K + k.val = q.val * K + k.val
    rw [hq])

/-- `[M, K]` cast to `[A, B, K]`: at `(a, b, k)`, the operand at row `q = a * B + b` and column `k`. -/
theorem shapeCast_mk_abk_apply {A B K M : ℕ} (y : (⟨2, ![M, K]⟩ : Shape).Idx → α)
    (h : (⟨2, ![M, K]⟩ : Shape).ShapeCasts ⟨3, ![A, B, K]⟩) (a : Fin A) (b : Fin B) (k : Fin K) (q : Fin M)
    (hq : q.val = a.val * B + b.val) : shapeCast ⟨3, ![A, B, K]⟩ y h (ix3 a b k) = y (ix2 q k) :=
  shapeCast_apply y h _ _ (by
    rw [Shape.rowMajor_val_two, Shape.rowMajor_val_three]
    show q.val * K + k.val = (a.val * B + b.val) * K + k.val
    rw [hq])

/-- `[A, B]` cast to `[A, B, 1]`: at `(a, b, u)`, the operand at `(a, b)`, whatever the unit coordinate `u`. -/
theorem shapeCast_ab_ab1_apply {A B : ℕ} (x : (⟨2, ![A, B]⟩ : Shape).Idx → α)
    (h : (⟨2, ![A, B]⟩ : Shape).ShapeCasts ⟨3, ![A, B, 1]⟩) (a : Fin A) (b : Fin B) (u : Fin 1) :
    shapeCast ⟨3, ![A, B, 1]⟩ x h (ix3 a b u) = x (ix2 a b) :=
  shapeCast_apply x h _ _ (by
    have hu : u.val = 0 := by omega
    rw [Shape.rowMajor_val_two, Shape.rowMajor_val_three]
    show a.val * B + b.val = (a.val * B + b.val) * 1 + u.val
    rw [hu, Nat.mul_one, Nat.add_zero])

/-- `[A, B, 1]` broadcast to `[A, B, C]`: at `(a, b, c)`, the operand at `(a, b, u)`. -/
theorem broadcastTo_ab1_abc_apply {A B C : ℕ} (v : (⟨3, ![A, B, 1]⟩ : Shape).Idx → α)
    (h : (⟨3, ![A, B, 1]⟩ : Shape).Broadcasts ⟨3, ![A, B, C]⟩) (a : Fin A) (b : Fin B) (c : Fin C) (u : Fin 1) :
    broadcastTo ⟨3, ![A, B, C]⟩ v h (ix3 a b c) = v (ix3 a b u) := by
  refine broadcastTo_apply v h (ix3 a b c) (ix3 a b u) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show u.val = if (1 : ℕ) = 1 then 0 else c.val
    rw [if_pos rfl]; omega

end Cert.Layout3
-- ==== Proof.KernelPayload.lean ====
/-
  The kernel body's arithmetic, read at an index at the ideal values.

  The body has four pure payloads. The first is the zero block an accumulator starts from. The second is one grid
  step: the block of `x` it holds is rows `16 t .. 16 t + 15` of every batch entry; an entry at block row `r` and column
  `c` is kept when the row number `16 t + r` and the column number `c` are both below the batch entry's size as signed
  32-bit integers, and replaced by the zero word otherwise; the masked block is read as a row of `8192 = 16 * 512`
  numbers, position `k = 512 r + c`, the block of `W1` as `8192` rows, and their product is added to the accumulator.
  Position `k` of step `t` is flattened position `8192 t + k` of the whole contraction, whose row is `16 t + k / 512` and
  whose column is `k % 512`; so the step adds the sum of the terms of its group of positions.
  The last two payloads are the layers after the contraction: a bias row added to every row, the larger of each entry
  and zero, and a matrix product, four times, then a last bias. A change of float format is the identity on the
  extended reals, a product into the zero accumulator is the plain sum of products.
-/
import proofs.«101094_j88622355186251_2_alg».proof.Proof.Gen.KernelIdeal.Skeleton
import proofs.«101094_j88622355186251_2_alg».proof.Proof.Spec
import proofs.«101094_j88622355186251_2_alg».proof.Proof.LibMatmul
import proofs.«101094_j88622355186251_2_alg».proof.Proof.LibLayout3
import Idealize.ShloMosaic.Lib.ValueLayout
import Idealize.ShloMosaic.Lib.Pipeline.Value

open scoped BigOperators

noncomputable section

namespace Cert.KernelIdeal.Payload

open Cert.KernelIdeal Cert.KernelIdeal.Gen Idealize.ShloMosaic Idealize.ShloMosaic.ValueIdx

/-! ## The zero block -/

/-- The block the first grid step stores is the zero word everywhere. -/
theorem pay1_eq : k0_pay1 (F := Ideal) = fun _ => Cert.Spec.z32 := by
  unfold k0_pay1
  exact shapeCast_self _ _

/-! ## One grid step -/

/-- The row number of a block entry, computed on 32-bit words as `t * 16 + r`, is the word of `16 t + r`: no wrap, all
    numbers being far below `2 ^ 32`. -/
theorem rowWord (n t r : ℕ) (hn : n = t) (ht : t < 32) (hr : r < 16) :
    IntOp.addi (Scalar.muli (BitVec.ofNat 32 n) 16#32) (BitVec.ofNat 32 r) = BitVec.ofNat 32 (16 * t + r) := by
  subst hn
  apply BitVec.eq_of_toNat_eq
  simp only [IntOp.addi, Scalar.muli, IntOp.muli, BitVec.toNat_add, BitVec.toNat_mul, BitVec.toNat_ofNat]
  omega

/-- The sizes block `[256, 1, 1]` copied along the two unit axes reads, at `(b, r, c)`, the size of batch entry `b`. -/
theorem sizes_bcast (v4 : IVec S256x1x1 32) (h1 : S256x1x1.ShapeCasts S256x1x1) (h2 : S256x1x1.Broadcasts S256x16x512)
    (b : Fin 256) (r : Fin 16) (c : Fin 512) :
    broadcastTo S256x16x512 (shapeCast S256x1x1 v4 h1) h2 (ix3 b r c) = v4 (ix3 b 0 0) := by
  rw [shapeCast_self]
  refine broadcastTo_apply v4 h2 (ix3 b r c) (ix3 b 0 0) fun ax => ?_
  match ax with
  | ⟨0, _⟩ => rfl
  | ⟨1, _⟩ => rfl
  | ⟨2, _⟩ => rfl

/-- `[256, 16, 512]` read as `[256, 8192]`: position `k` of a row is block row `k / 512`, column `k % 512`. -/
theorem cast_rows {α : Type} (v : S256x16x512.Idx → α) (h : S256x16x512.ShapeCasts S256x8192) (b : Fin 256) (k : Fin 8192) :
    shapeCast S256x8192 v h (ix2 b k)
      = v (ix3 b ⟨k.val / 512, by have := k.isLt; omega⟩ ⟨k.val % 512, Nat.mod_lt _ (by decide)⟩) :=
  shapeCast_apply v h _ _ (by
    rw [Shape.rowMajor_val_three, Shape.rowMajor_val_two]
    show (b.val * 16 + k.val / 512) * 512 + k.val % 512 = b.val * 8192 + k.val
    omega)

/-- The mask of one grid step at block entry `(b, r, c)`: row `16 t + r` and column `c` against the size of batch entry `b`. -/
theorem mask_apply (i : grid0.Coords) (t : Fin 32) (ht : (i 0).val = t.val) (sz : (⟨1, ![256]⟩ : Shape).Idx → BitVec 32)
    (v4 : Vec Ideal S256x1x1 .i32) (hs : ∀ b : Fin 256, v4 (ix3 b 0 0) = sz (ix1 b))
    (b : Fin 256) (r : Fin 16) (c : Fin 512) :
    andi
        (cmpi .slt
          (addi (broadcast S256x16x512 (Scalar.muli (BitVec.ofNat 32 (i 0).val) 16#32))
            (iota .tc S256x16x512 32 [1] iota_S256x16x512_d1_w32))
          (broadcastTo S256x16x512 (shapeCast S256x1x1 v4 shapeCasts_S256x1x1_S256x1x1) broadcasts_S256x1x1_S256x16x512))
        (cmpi .slt (iota .tc S256x16x512 32 [2] iota_S256x16x512_d2_w32)
          (broadcastTo S256x16x512 (shapeCast S256x1x1 v4 shapeCasts_S256x1x1_S256x1x1) broadcasts_S256x1x1_S256x16x512))
        (ix3 b r c)
      = Cert.Spec.keep (sz (ix1 b)) (16 * t.val + r.val) c.val := by
  show IntOp.andi
      (IntOp.cmpi .slt
        (IntOp.addi (Scalar.muli (BitVec.ofNat 32 (i 0).val) 16#32)
          (iota .tc S256x16x512 32 [1] iota_S256x16x512_d1_w32 (ix3 b r c)))
        (broadcastTo S256x16x512 (shapeCast S256x1x1 v4 shapeCasts_S256x1x1_S256x1x1) broadcasts_S256x1x1_S256x16x512 (ix3 b r c)))
      (IntOp.cmpi .slt (iota .tc S256x16x512 32 [2] iota_S256x16x512_d2_w32 (ix3 b r c))
        (broadcastTo S256x16x512 (shapeCast S256x1x1 v4 shapeCasts_S256x1x1_S256x1x1) broadcasts_S256x1x1_S256x16x512 (ix3 b r c)))
    = _
  rw [iota_single_apply, iota_single_apply, sizes_bcast, hs b]
  show IntOp.andi (IntOp.cmpi .slt (IntOp.addi (Scalar.muli (BitVec.ofNat 32 (i 0).val) 16#32) (BitVec.ofNat 32 r.val)) (sz (ix1 b)))
      (IntOp.cmpi .slt (BitVec.ofNat 32 c.val) (sz (ix1 b))) = _
  rw [rowWord (i 0).val t.val r.val ht t.isLt r.isLt]
  rfl

/-- The `W1` block `[16, 512, 128]` read as `[8192, 128]`: row `k` is block row `k / 512`, `k % 512`. -/
theorem cast_w (v20 : Vec Ideal S16x512x128 .f32) (k : Fin 8192) (j : Fin 128) :
    shapeCast S8192x128 (shapeCast S16x512x128 v20 shapeCasts_S16x512x128_S16x512x128) shapeCasts_S16x512x128_S8192x128 (ix2 k j)
      = v20 (ix3 ⟨k.val / 512, by have := k.isLt; omega⟩ ⟨k.val % 512, Nat.mod_lt _ (by decide)⟩ j) := by
  rw [shapeCast_self]
  exact Cert.Layout3.shapeCast_abk_mk_apply v20 shapeCasts_S16x512x128_S8192x128
    ⟨k.val / 512, by have := k.isLt; omega⟩ ⟨k.val % 512, Nat.mod_lt _ (by decide)⟩ j k (by show k.val = k.val / 512 * 512 + k.val % 512; omega)

/-- One grid step adds to the accumulator the terms of its group of 8192 positions. -/
theorem pay2_apply (i : grid0.Coords) (t : Fin 32) (ht : (i 0).val = t.val)
    (x : (⟨3, ![256, 512, 512]⟩ : Shape).Idx → EReal) (w1 : (⟨2, ![262144, 128]⟩ : Shape).Idx → EReal) (sz : (⟨1, ![256]⟩ : Shape).Idx → BitVec 32)
    (v4 : Vec Ideal S256x1x1 .i32) (v15 : Vec Ideal S256x16x512 .f32) (v20 : Vec Ideal S16x512x128 .f32) (v24 : Vec Ideal S256x128 .f32)
    (hs : ∀ b : Fin 256, v4 (ix3 b 0 0) = sz (ix1 b))
    (hx : ∀ (b : Fin 256) (r : Fin 16) (c : Fin 512), v15 (ix3 b r c) = x (ix3 b ⟨16 * t.val + r.val, by have := t.isLt; have := r.isLt; omega⟩ c))
    (hw : ∀ (r : Fin 16) (c : Fin 512) (j : Fin 128), v20 (ix3 r c j) = w1 (ix2 ⟨(16 * t.val + r.val) * 512 + c.val, by have := t.isLt; have := r.isLt; have := c.isLt; omega⟩ j))
    (b : Fin 256) (j : Fin 128) :
    k0_pay2 (F := Ideal) i v4 v15 v20 v24 (ix2 b j) = v24 (ix2 b j) + Cert.Spec.groupPart x w1 sz t b j := by
  unfold k0_pay2
  refine (congrFun (shapeCast_self _ _) (ix2 b j)).trans ?_
  refine congrArg (fun z => v24 (ix2 b j) + z) ?_
  refine (Cert.MatOps.matmul_plain_zero_apply none _ _ b j).trans ?_
  unfold Cert.Spec.groupPart
  refine Finset.sum_congr rfl fun k _ => ?_
  have hk := k.isLt
  have htl := t.isLt
  unfold Cert.Spec.term Cert.Spec.masked
  refine congrArg₂ (· * ·) ?_ ?_
  · -- the masked entry
    refine (truncf_apply _ bitsLt_bf16_f32 (ix2 b k)).trans ?_
    refine (cast_rows _ shapeCasts_S256x16x512_S256x8192 b k).trans ?_
    refine (select_apply _ _ _ _).trans ?_
    rw [mask_apply i t ht sz v4 hs, hx]
    have hrow : (16 * t.val + k.val / 512) = (Cert.Spec.rowOf ⟨8192 * t.val + k.val, Cert.Spec.pos_lt t k⟩).val := by
      show 16 * t.val + k.val / 512 = (8192 * t.val + k.val) / 512
      omega
    have hcol : k.val % 512 = (Cert.Spec.colOf ⟨8192 * t.val + k.val, Cert.Spec.pos_lt t k⟩).val := by
      show k.val % 512 = (8192 * t.val + k.val) % 512
      omega
    have hr : (⟨16 * t.val + k.val / 512, by omega⟩ : Fin 512) = Cert.Spec.rowOf ⟨8192 * t.val + k.val, Cert.Spec.pos_lt t k⟩ := Fin.ext hrow
    have hc : (⟨k.val % 512, Nat.mod_lt _ (by decide)⟩ : Fin 512) = Cert.Spec.colOf ⟨8192 * t.val + k.val, Cert.Spec.pos_lt t k⟩ := Fin.ext hcol
    show Scalar.select (Cert.Spec.keep (sz (ix1 b)) (16 * t.val + k.val / 512) (k.val % 512))
        (x (ix3 b (⟨16 * t.val + k.val / 512, by omega⟩ : Fin 512) (⟨k.val % 512, Nat.mod_lt _ (by decide)⟩ : Fin 512))) Cert.Spec.z32 = _
    rw [hr, hc, hrow, hcol]
  · -- the entry of `W1`
    refine (truncf_apply _ bitsLt_bf16_f32 (ix2 k j)).trans ?_
    refine (cast_w v20 k j).trans ?_
    rw [hw]
    refine congrArg w1 ?_
    refine congrArg (fun d => ix2 d j) (Fin.ext ?_)
    show (16 * t.val + k.val / 512) * 512 + k.val % 512 = 8192 * t.val + k.val
    omega

/-! ## The layers after the contraction, as operations on whole arrays -/

/-- A change of float format is the identity on the extended reals. -/
theorem truncf_id {s : Shape} {φ ψ : FTy} (v : FVec Ideal s φ) (h : ψ.bits < φ.bits) :
    (truncf ψ v h : FVec Ideal s ψ) = v := rfl

/-- The product into the zero accumulator, with the plain dimension numbers, is the matrix product. -/
theorem matmul_plain_eq_mm {M K N : ℕ} {φ₁ φ₂ : FTy} (l : FVec Ideal ⟨2, ![M, K]⟩ φ₁) (r : FVec Ideal ⟨2, ![K, N]⟩ φ₂) :
    matmul (F := Ideal) (DotDims.plain M K N) none l r (constant ⟨2, ![M, N]⟩ .f32 0x00000000#32) = Cert.Spec.mm l r := by
  funext i
  obtain ⟨p, q, rfl⟩ : ∃ (p : Fin M) (q : Fin N), i = ix2 p q := ⟨i 0, i 1, eq_ix2 i⟩
  exact Cert.MatOps.matmul_plain_zero_apply none l r p q

theorem mm_128_128 (l : FVec Ideal S256x128 .bf16) (r : FVec Ideal S128x128 .bf16) :
    matmul (F := Ideal) dot_S256x128_S128x128_S256x128_1_0_0_1_n_n none l r (constant S256x128 .f32 0x00000000#32)
      = Cert.Spec.mm l r := matmul_plain_eq_mm l r

theorem mm_128_256 (l : FVec Ideal S256x128 .bf16) (r : FVec Ideal S128x256 .bf16) :
    matmul (F := Ideal) dot_S256x128_S128x256_S256x256_1_0_0_1_n_n none l r (constant S256x256 .f32 0x00000000#32)
      = Cert.Spec.mm l r := matmul_plain_eq_mm l r

theorem mm_256_128 (l : FVec Ideal S256x256 .bf16) (r : FVec Ideal S256x128 .bf16) :
    matmul (F := Ideal) dot_S256x256_S256x128_S256x128_1_0_0_1_n_n none l r (constant S256x128 .f32 0x00000000#32)
      = Cert.Spec.mm l r := matmul_plain_eq_mm l r

theorem mm_128_64 (l : FVec Ideal S256x128 .bf16) (r : FVec Ideal S128x64 .bf16) :
    matmul (F := Ideal) dot_S256x128_S128x64_S256x64_1_0_0_1_n_n none l r (constant S256x64 .f32 0x00000000#32)
      = Cert.Spec.mm l r := matmul_plain_eq_mm l r

/-- A bias row, viewed as a one-row matrix and copied to every row, added to a matrix. -/
theorem addf_bias {A N : ℕ} (v : FVec Ideal ⟨2, ![A, N]⟩ .f32) (b : FVec Ideal ⟨1, ![N]⟩ .f32)
    (h1 : (⟨1, ![N]⟩ : Shape).ShapeCasts ⟨2, ![1, N]⟩) (h2 : (⟨2, ![1, N]⟩ : Shape).Broadcasts ⟨2, ![A, N]⟩) :
    addf v (broadcastTo ⟨2, ![A, N]⟩ (shapeCast ⟨2, ![1, N]⟩ b h1) h2) = Cert.Spec.addBias v b := by
  funext i
  obtain ⟨p, q, rfl⟩ : ∃ (p : Fin A) (q : Fin N), i = ix2 p q := ⟨i 0, i 1, eq_ix2 i⟩
  show v (ix2 p q) + broadcastTo ⟨2, ![A, N]⟩ (shapeCast ⟨2, ![1, N]⟩ b h1) h2 (ix2 p q) = v (ix2 p q) + b (ix1 q)
  rw [broadcastTo_1b_ab_apply, shapeCast_a_1a_apply]

/-- The larger of each entry and the zero word. -/
theorem maximumf_zero {s : Shape} (v : FVec Ideal s .f32) :
    maximumf v (broadcast s (Scalar.ofBits (F := Ideal) .f32 0x00000000#32)) = Cert.Spec.relu v := rfl

/-- The two payloads after the contraction, composed, are the layers of the specification. -/
theorem tail_eq (acc : Vec Ideal S256x128 .f32) (b1 : Vec Ideal S128 .f32) (w2 : Vec Ideal S128x128 .f32) (b2 : Vec Ideal S128 .f32) (wr1 : Vec Ideal S128x256 .f32) (br1 : Vec Ideal S256 .f32) (wr2 : Vec Ideal S256x128 .f32) (br2 : Vec Ideal S128 .f32) (wr3 : Vec Ideal S128x64 .f32) (br3 : Vec Ideal S64 .f32) :
    k0_pay3 (F := Ideal) (k0_pay4 (F := Ideal) acc b1 w2 b2 wr1 br1 wr2 br2) wr3 br3 = Cert.Spec.tail acc b1 w2 b2 wr1 br1 wr2 br2 wr3 br3 := by
  unfold k0_pay3 k0_pay4 Cert.Spec.tail
  simp only [truncf_id, mm_128_128, mm_128_256, mm_256_128, mm_128_64, addf_bias, maximumf_zero]

end Cert.KernelIdeal.Payload

end
-- ==== Proof.BlockReads.lean ====
/-
  What each input window's block holds at a grid point.

  The region runs over 32 grid points. At point t the window on x holds the sixteen rows 16 t .. 16 t + 15 of every
  batch entry, the window on W1 (read as a [512, 512, 128] array) holds its sixteen leading slabs 16 t .. 16 t + 15,
  that is rows (16 t + r) * 512 + c of W1, and every other window holds its whole array. An element of a block sits in
  its array, on each axis, at the block index times the block size plus its coordinate inside the block.
-/
import proofs.«101094_j88622355186251_2_alg».proof.Proof.Gen.KernelIdeal.Frame
import proofs.«101094_j88622355186251_2_alg».proof.Proof.LibLayout3
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F] (m : (ℓ : Loc nD τ sig) → Buf (Elt F) ℓ)

/-- The block index of the window on the sizes at point t: (0, 0, 0). -/
theorem idx_sizes : ∀ t : Fin cfg0.N, win0_0.index t (0 : Fin 3) = 0 ∧ win0_0.index t (1 : Fin 3) = 0 ∧ win0_0.index t (2 : Fin 3) = 0 :=
  (by decide +kernel : ∀ t : Fin grid0.N, _)

/-- When the region is entered, the array the window on the sizes reads holds the sizes cast to [256, 1, 1]. -/
theorem V_sizes (c : Dev nD) : (V m c main_v1 : Vec F S256x1x1 .i32)
    = shapeCast S256x1x1 (m ((c : Thread nD τ).loc main_arg11)) shapeCasts_S256_S256x1x1 := by
  dsimp only [Gen.V, Gen.hostOps0]; after_results; rfl

/-- The window on the sizes holds, at (b, 0, 0), the size of batch entry b. -/
theorem blk_sizes (c : Dev nD) (t : Fin cfg0.N) (b : Fin 256) :
    (iblk m c 0 t : Vec F S256x1x1 .i32) (ix3 b 0 0) = m ((c : Thread nD τ).loc main_arg11) (ix1 b) := by
  have e : (iblk m c 0 t : Vec F S256x1x1 .i32) (ix3 b 0 0) = (V m c main_v1 : Vec F S256x1x1 .i32) (ix3 b 0 0) := by
    unfold iblk
    rw [View.read_apply]
    show V m c main_v1 _ = V m c main_v1 _
    refine congrArg _ (funext fun a => Fin.ext ?_)
    match a with
    | ⟨0, _⟩ => show win0_0.index t 0 * 256 + 1 * b.val = b.val; rw [(idx_sizes t).1]; omega
    | ⟨1, _⟩ => show win0_0.index t 1 * 1 + 1 * 0 = 0; rw [(idx_sizes t).2.1]
    | ⟨2, _⟩ => show win0_0.index t 2 * 1 + 1 * 0 = 0; rw [(idx_sizes t).2.2]
  refine e.trans ((congrFun (V_sizes m c) _).trans ?_)
  exact shapeCast_apply _ _ _ _ (by
    show (S256.rowMajor (ix1 b)).val = (S256x1x1.rowMajor (ix3 b 0 0)).val
    rw [Shape.rowMajor_val_one, Shape.rowMajor_val_three]
    show b.val = (b.val * 1 + 0) * 1 + 0
    omega)

/-- The block index of the window on x at point t: (0, t, 0). -/
theorem idx_x : ∀ t : Fin cfg0.N, win0_1.index t (0 : Fin 3) = 0 ∧ win0_1.index t (1 : Fin 3) = t.val ∧ win0_1.index t (2 : Fin 3) = 0 :=
  (by decide +kernel : ∀ t : Fin grid0.N, _)

/-- The window on x holds, at (b, r, c) of point t, entry (b, 16 t + r, c) of x. -/
theorem blk_x (c : Dev nD) (t : Fin cfg0.N) (ht : t.val < 32) (b : Fin 256) (r : Fin 16) (cc : Fin 512) :
    (iblk m c 1 t : Vec F S256x16x512 .f32) (ix3 b r cc) = m ((c : Thread nD τ).loc main_arg0) (ix3 b ⟨16 * t.val + r.val, by have := r.isLt; omega⟩ cc) := by
  unfold iblk
  rw [View.read_apply]
  show V m c main_arg0 _ = m (c.tc.loc main_arg0) _
  rw [V_main_arg0]
  refine congrArg _ (funext fun a => Fin.ext ?_)
  match a with
  | ⟨0, _⟩ => show win0_1.index t 0 * 256 + 1 * b.val = b.val; rw [(idx_x t).1]; omega
  | ⟨1, _⟩ => show win0_1.index t 1 * 16 + 1 * r.val = 16 * t.val + r.val; rw [(idx_x t).2.1]; omega
  | ⟨2, _⟩ => show win0_1.index t 2 * 512 + 1 * cc.val = cc.val; rw [(idx_x t).2.2]; omega

/-- The block index of the window on W1 at point t: (t, 0, 0). -/
theorem idx_w1 : ∀ t : Fin cfg0.N, win0_2.index t (0 : Fin 3) = t.val ∧ win0_2.index t (1 : Fin 3) = 0 ∧ win0_2.index t (2 : Fin 3) = 0 :=
  (by decide +kernel : ∀ t : Fin grid0.N, _)

/-- When the region is entered, the array the window on W1 reads holds W1 cast to [512, 512, 128]. -/
theorem V_w1 (c : Dev nD) : (V m c main_v0 : Vec F S512x512x128 .f32)
    = shapeCast S512x512x128 (m ((c : Thread nD τ).loc main_arg1)) shapeCasts_S262144x128_S512x512x128 := by
  dsimp only [Gen.V, Gen.hostOps0]; after_results; rfl

/-- The window on W1 holds, at (r, c, j) of point t, entry ((16 t + r) * 512 + c, j) of W1. -/
theorem blk_w1 (c : Dev nD) (t : Fin cfg0.N) (ht : t.val < 32) (r : Fin 16) (cc : Fin 512) (j : Fin 128) :
    (iblk m c 2 t : Vec F S16x512x128 .f32) (ix3 r cc j) = m ((c : Thread nD τ).loc main_arg1) (ix2 ⟨(16 * t.val + r.val) * 512 + cc.val, by have := r.isLt; have := cc.isLt; omega⟩ j) := by
  have hr := r.isLt
  have e : (iblk m c 2 t : Vec F S16x512x128 .f32) (ix3 r cc j)
      = (V m c main_v0 : Vec F S512x512x128 .f32) (ix3 (⟨16 * t.val + r.val, by omega⟩ : Fin 512) cc j) := by
    unfold iblk
    rw [View.read_apply]
    show V m c main_v0 _ = V m c main_v0 _
    refine congrArg _ (funext fun a => Fin.ext ?_)
    match a with
    | ⟨0, _⟩ => show win0_2.index t 0 * 16 + 1 * r.val = 16 * t.val + r.val; rw [(idx_w1 t).1]; omega
    | ⟨1, _⟩ => show win0_2.index t 1 * 512 + 1 * cc.val = cc.val; rw [(idx_w1 t).2.1]; omega
    | ⟨2, _⟩ => show win0_2.index t 2 * 128 + 1 * j.val = j.val; rw [(idx_w1 t).2.2]; omega
  refine e.trans ((congrFun (V_w1 m c) _).trans ?_)
  exact Cert.Layout3.shapeCast_mk_abk_apply (A := 512) (B := 512) (K := 128) (M := 262144)
    (m ((c : Thread nD τ).loc main_arg1)) shapeCasts_S262144x128_S512x512x128 ⟨16 * t.val + r.val, by omega⟩ cc j
    ⟨(16 * t.val + r.val) * 512 + cc.val, by have := cc.isLt; omega⟩ rfl

/-- The block index of the window on the first layer's bias is zero on every axis, at every point. -/
theorem idx_b1 : ∀ t : Fin cfg0.N, win0_3.index t (0 : Fin 1) = 0 :=
  (by decide +kernel : ∀ t : Fin grid0.N, _)

/-- The window on the first layer's bias holds the whole array at every point. -/
theorem blk_b1 (c : Dev nD) (t : Fin cfg0.N) : (iblk m c 3 t : Vec F S128 .f32) = m ((c : Thread nD τ).loc main_arg2) := by
  funext y
  unfold iblk
  rw [View.read_apply]
  show V m c main_arg2 _ = m (c.tc.loc main_arg2) _
  rw [V_main_arg2]
  refine congrArg _ (funext fun a => Fin.ext ?_)
  match a with
  | ⟨0, _⟩ => show win0_3.index t 0 * 128 + 1 * (y 0).val = (y 0).val; rw [idx_b1 t]; omega

/-- The block index of the window on the second layer's weights is zero on every axis, at every point. -/
theorem idx_w2 : ∀ t : Fin cfg0.N, win0_4.index t (0 : Fin 2) = 0 ∧ win0_4.index t (1 : Fin 2) = 0 :=
  (by decide +kernel : ∀ t : Fin grid0.N, _)

/-- The window on the second layer's weights holds the whole array at every point. -/
theorem blk_w2 (c : Dev nD) (t : Fin cfg0.N) : (iblk m c 4 t : Vec F S128x128 .f32) = m ((c : Thread nD τ).loc main_arg3) := by
  funext y
  unfold iblk
  rw [View.read_apply]
  show V m c main_arg3 _ = m (c.tc.loc main_arg3) _
  rw [V_main_arg3]
  refine congrArg _ (funext fun a => Fin.ext ?_)
  match a with
  | ⟨0, _⟩ => show win0_4.index t 0 * 128 + 1 * (y 0).val = (y 0).val; rw [(idx_w2 t).1]; omega
  | ⟨1, _⟩ => show win0_4.index t 1 * 128 + 1 * (y 1).val = (y 1).val; rw [(idx_w2 t).2]; omega

/-- The block index of the window on the second layer's bias is zero on every axis, at every point. -/
theorem idx_b2 : ∀ t : Fin cfg0.N, win0_5.index t (0 : Fin 1) = 0 :=
  (by decide +kernel : ∀ t : Fin grid0.N, _)

/-- The window on the second layer's bias holds the whole array at every point. -/
theorem blk_b2 (c : Dev nD) (t : Fin cfg0.N) : (iblk m c 5 t : Vec F S128 .f32) = m ((c : Thread nD τ).loc main_arg4) := by
  funext y
  unfold iblk
  rw [View.read_apply]
  show V m c main_arg4 _ = m (c.tc.loc main_arg4) _
  rw [V_main_arg4]
  refine congrArg _ (funext fun a => Fin.ext ?_)
  match a with
  | ⟨0, _⟩ => show win0_5.index t 0 * 128 + 1 * (y 0).val = (y 0).val; rw [idx_b2 t]; omega

/-- The block index of the window on the third layer's weights is zero on every axis, at every point. -/
theorem idx_wr1 : ∀ t : Fin cfg0.N, win0_6.index t (0 : Fin 2) = 0 ∧ win0_6.index t (1 : Fin 2) = 0 :=
  (by decide +kernel : ∀ t : Fin grid0.N, _)

/-- The window on the third layer's weights holds the whole array at every point. -/
theorem blk_wr1 (c : Dev nD) (t : Fin cfg0.N) : (iblk m c 6 t : Vec F S128x256 .f32) = m ((c : Thread nD τ).loc main_arg5) := by
  funext y
  unfold iblk
  rw [View.read_apply]
  show V m c main_arg5 _ = m (c.tc.loc main_arg5) _
  rw [V_main_arg5]
  refine congrArg _ (funext fun a => Fin.ext ?_)
  match a with
  | ⟨0, _⟩ => show win0_6.index t 0 * 128 + 1 * (y 0).val = (y 0).val; rw [(idx_wr1 t).1]; omega
  | ⟨1, _⟩ => show win0_6.index t 1 * 256 + 1 * (y 1).val = (y 1).val; rw [(idx_wr1 t).2]; omega

/-- The block index of the window on the third layer's bias is zero on every axis, at every point. -/
theorem idx_br1 : ∀ t : Fin cfg0.N, win0_7.index t (0 : Fin 1) = 0 :=
  (by decide +kernel : ∀ t : Fin grid0.N, _)

/-- The window on the third layer's bias holds the whole array at every point. -/
theorem blk_br1 (c : Dev nD) (t : Fin cfg0.N) : (iblk m c 7 t : Vec F S256 .f32) = m ((c : Thread nD τ).loc main_arg6) := by
  funext y
  unfold iblk
  rw [View.read_apply]
  show V m c main_arg6 _ = m (c.tc.loc main_arg6) _
  rw [V_main_arg6]
  refine congrArg _ (funext fun a => Fin.ext ?_)
  match a with
  | ⟨0, _⟩ => show win0_7.index t 0 * 256 + 1 * (y 0).val = (y 0).val; rw [idx_br1 t]; omega

/-- The block index of the window on the fourth layer's weights is zero on every axis, at every point. -/
theorem idx_wr2 : ∀ t : Fin cfg0.N, win0_8.index t (0 : Fin 2) = 0 ∧ win0_8.index t (1 : Fin 2) = 0 :=
  (by decide +kernel : ∀ t : Fin grid0.N, _)

/-- The window on the fourth layer's weights holds the whole array at every point. -/
theorem blk_wr2 (c : Dev nD) (t : Fin cfg0.N) : (iblk m c 8 t : Vec F S256x128 .f32) = m ((c : Thread nD τ).loc main_arg7) := by
  funext y
  unfold iblk
  rw [View.read_apply]
  show V m c main_arg7 _ = m (c.tc.loc main_arg7) _
  rw [V_main_arg7]
  refine congrArg _ (funext fun a => Fin.ext ?_)
  match a with
  | ⟨0, _⟩ => show win0_8.index t 0 * 256 + 1 * (y 0).val = (y 0).val; rw [(idx_wr2 t).1]; omega
  | ⟨1, _⟩ => show win0_8.index t 1 * 128 + 1 * (y 1).val = (y 1).val; rw [(idx_wr2 t).2]; omega

/-- The block index of the window on the fourth layer's bias is zero on every axis, at every point. -/
theorem idx_br2 : ∀ t : Fin cfg0.N, win0_9.index t (0 : Fin 1) = 0 :=
  (by decide +kernel : ∀ t : Fin grid0.N, _)

/-- The window on the fourth layer's bias holds the whole array at every point. -/
theorem blk_br2 (c : Dev nD) (t : Fin cfg0.N) : (iblk m c 9 t : Vec F S128 .f32) = m ((c : Thread nD τ).loc main_arg8) := by
  funext y
  unfold iblk
  rw [View.read_apply]
  show V m c main_arg8 _ = m (c.tc.loc main_arg8) _
  rw [V_main_arg8]
  refine congrArg _ (funext fun a => Fin.ext ?_)
  match a with
  | ⟨0, _⟩ => show win0_9.index t 0 * 128 + 1 * (y 0).val = (y 0).val; rw [idx_br2 t]; omega

/-- The block index of the window on the last layer's weights is zero on every axis, at every point. -/
theorem idx_wr3 : ∀ t : Fin cfg0.N, win0_10.index t (0 : Fin 2) = 0 ∧ win0_10.index t (1 : Fin 2) = 0 :=
  (by decide +kernel : ∀ t : Fin grid0.N, _)

/-- The window on the last layer's weights holds the whole array at every point. -/
theorem blk_wr3 (c : Dev nD) (t : Fin cfg0.N) : (iblk m c 10 t : Vec F S128x64 .f32) = m ((c : Thread nD τ).loc main_arg9) := by
  funext y
  unfold iblk
  rw [View.read_apply]
  show V m c main_arg9 _ = m (c.tc.loc main_arg9) _
  rw [V_main_arg9]
  refine congrArg _ (funext fun a => Fin.ext ?_)
  match a with
  | ⟨0, _⟩ => show win0_10.index t 0 * 128 + 1 * (y 0).val = (y 0).val; rw [(idx_wr3 t).1]; omega
  | ⟨1, _⟩ => show win0_10.index t 1 * 64 + 1 * (y 1).val = (y 1).val; rw [(idx_wr3 t).2]; omega

/-- The block index of the window on the last layer's bias is zero on every axis, at every point. -/
theorem idx_br3 : ∀ t : Fin cfg0.N, win0_11.index t (0 : Fin 1) = 0 :=
  (by decide +kernel : ∀ t : Fin grid0.N, _)

/-- The window on the last layer's bias holds the whole array at every point. -/
theorem blk_br3 (c : Dev nD) (t : Fin cfg0.N) : (iblk m c 11 t : Vec F S64 .f32) = m ((c : Thread nD τ).loc main_arg10) := by
  funext y
  unfold iblk
  rw [View.read_apply]
  show V m c main_arg10 _ = m (c.tc.loc main_arg10) _
  rw [V_main_arg10]
  refine congrArg _ (funext fun a => Fin.ext ?_)
  match a with
  | ⟨0, _⟩ => show win0_11.index t 0 * 64 + 1 * (y 0).val = (y 0).val; rw [idx_br3 t]; omega

end Cert.KernelIdeal.Blocks

end
-- ==== Proof.KernelValue.lean ====
/-
  What the idealized kernel's result array holds after the run.

  The accumulator is stored whole at the first grid step and carried from step to step. Step n adds to it the part of
  the first contraction that the positions 8192 n … 8192 n + 8191 contribute: the x block of step n is rows
  16 n … 16 n + 15 of every matrix, the W1 block is rows 8192 n … 8192 n + 8191 of W1, and the sizes block is the whole
  size vector. After step n the accumulator is therefore zero plus the parts of steps 0 … n. The last step, n = 31, then
  runs the remaining layers on the accumulator and stores the result block; that block is the whole [256, 64] result
  array and it is written back once, after the last step. So the array ends at the remaining layers applied to the sum
  of all 32 parts, which is the first contraction taken over all 262144 positions at once.
-/
import proofs.«101094_j88622355186251_2_alg».proof.Proof.Gen.KernelIdeal.Value
import proofs.«101094_j88622355186251_2_alg».proof.Proof.Spec
import proofs.«101094_j88622355186251_2_alg».proof.Proof.SpecLaws
import proofs.«101094_j88622355186251_2_alg».proof.Proof.KernelPieces
import proofs.«101094_j88622355186251_2_alg».proof.Proof.KernelPayload
import proofs.«101094_j88622355186251_2_alg».proof.Proof.BlockReads
import Idealize.ShloMosaic.Lib.Pipeline.Value

open scoped BigOperators

noncomputable section

namespace Cert.KernelIdeal.KValue

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-- The part of the first contraction that grid step `n` contributes at index `i` (zero past the grid's 32 steps). -/
def addend (c : Dev nD) (n : ℕ) (i : S256x128.Idx) : EReal :=
  if h : n < 32 then Cert.Spec.groupPart (m ((c : Thread nD τ).loc main_arg0)) (m ((c : Thread nD τ).loc main_arg1)) (m ((c : Thread nD τ).loc main_arg11)) ⟨n, h⟩ (i 0) (i 1) else 0

/-- The grid has one axis: a point's coordinate on it is the point's number. -/
theorem coords0 : ∀ t : Fin cfg0.N, ((grid0.coords t) 0).val = t.val :=
  (by decide +kernel : ∀ t : Fin grid0.N, ((grid0.coords t) 0).val = t.val)

/-- One grid step: the accumulator's new contents are its old contents plus the step's part. -/
theorem step (c : Dev nD) (n : ℕ) (hb : n < cfg0.N) (acc : Vec Ideal S256x128 .f32) (i : S256x128.Idx) :
    k0_pay2 (F := Ideal) (grid0.coords ⟨n, hb⟩) (iblk m c 0 ⟨n, hb⟩) (iblk m c 1 ⟨n, hb⟩) (iblk m c 2 ⟨n, hb⟩) acc i
      = acc i + addend m c n i := by
  have hn : n < 32 := lt_of_lt_of_eq hb N_0
  obtain ⟨b, j, rfl⟩ : ∃ (b : Fin 256) (j : Fin 128), i = ix2 b j := ⟨i 0, i 1, eq_ix2 i⟩
  refine (Cert.KernelIdeal.Payload.pay2_apply (grid0.coords ⟨n, hb⟩) ⟨n, hn⟩ (coords0 ⟨n, hb⟩)
    (m ((c : Thread nD τ).loc main_arg0)) (m ((c : Thread nD τ).loc main_arg1)) (m ((c : Thread nD τ).loc main_arg11))
    (iblk m c 0 ⟨n, hb⟩) (iblk m c 1 ⟨n, hb⟩) (iblk m c 2 ⟨n, hb⟩) acc
    (fun b => Cert.KernelIdeal.Blocks.blk_sizes m c ⟨n, hb⟩ b)
    (fun b r cc => Cert.KernelIdeal.Blocks.blk_x m c ⟨n, hb⟩ hn b r cc)
    (fun r cc j => Cert.KernelIdeal.Blocks.blk_w1 m c ⟨n, hb⟩ hn r cc j) b j).trans ?_
  unfold addend
  rw [dif_pos hn]

/-- After the first step the accumulator holds zero plus the first part. -/
theorem first (c : Dev nD) (h : 0 < cfg0.N) (i : S256x128.Idx) :
    scAt0_0 m c 0 h (VS0_0.read (Elt Ideal) VS0_0.junk) i = Cert.Spec.z32 + addend m c 0 i := by
  unfold scAt0_0
  rw [dif_pos (by decide : 0 % 32 = 0), dif_neg (by decide : ¬0 % 32 = 31), Cert.KernelIdeal.Pieces.scratch_A]
  refine (step m c 0 h _ i).trans ?_
  rw [Cert.KernelIdeal.Payload.pay1_eq]

/-- Every later step adds its part to what the step before left. -/
theorem later (c : Dev nD) (n : ℕ) (h : n < cfg0.N) (acc : Vec Ideal S256x128 .f32) (i : S256x128.Idx) (h0 : 0 < n) :
    scAt0_0 m c n h acc i = acc i + addend m c n i := by
  have hn : n < 32 := lt_of_lt_of_eq h N_0
  have hm : n % 32 = n := Nat.mod_eq_of_lt hn
  have hne : ¬n % 32 = 0 := by omega
  unfold scAt0_0
  by_cases h1 : n % 32 = 31
  · rw [dif_neg hne, dif_pos h1, Cert.KernelIdeal.Pieces.scratch_C]
    exact step m c n h acc i
  · rw [dif_neg hne, dif_neg h1, Cert.KernelIdeal.Pieces.scratch_B]
    exact step m c n h acc i

/-- After step `n` the accumulator holds zero plus the parts of steps 0 … n. -/
theorem scratch_after (c : Dev nD) (n : ℕ) (hn : n < cfg0.N) (i : S256x128.Idx) :
    (outsAt0 m c n hn).2 i = Cert.Spec.z32 + ∑ s ∈ Finset.range (n + 1), addend m c s i := by
  have hN : n < 32 := lt_of_lt_of_eq hn N_0
  rw [soutsAt0_0_sweep m c n hn]
  have key := Pipeline.accAt_add_apply (N := cfg0.N)
    (fun n h => scAt0_0 m c n h (VS0_0.read (Elt Ideal) VS0_0.junk)) (scAt0_0 m c)
    (fun _ => Cert.Spec.z32) (addend m c) 0 31 (fun h i => first m c h i)
    (fun n h acc i hlt _ => later m c n h acc i hlt) n (by omega) (by omega) i
  simpa only [Nat.zero_add] using key

/-- The result both programs are compared at, as contents of the kernel's result array on core `c`. -/
abbrev result (c : Dev nD) : Buf (Elt Ideal) ((c : Thread nD τ).loc main_v2) :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The last grid point. -/
abbrev tLast : Fin cfg0.N := ⟨31, by rw [show cfg0.N = 32 from N_0]; decide⟩

/-- What the last step leaves in the result block: the remaining layers on the completed first contraction. -/
theorem out_last (c : Dev nD) : (outsAt0 m c tLast.val tLast.isLt).1 = result m c := by
  rw [outsAt0_C m c tLast (by decide) (by decide)]
  dsimp only
  rw [Cert.KernelIdeal.Pieces.out_C, Cert.KernelIdeal.Blocks.blk_b1, Cert.KernelIdeal.Blocks.blk_w2,
    Cert.KernelIdeal.Blocks.blk_b2, Cert.KernelIdeal.Blocks.blk_wr1, Cert.KernelIdeal.Blocks.blk_br1,
    Cert.KernelIdeal.Blocks.blk_wr2, Cert.KernelIdeal.Blocks.blk_br2, Cert.KernelIdeal.Blocks.blk_wr3,
    Cert.KernelIdeal.Blocks.blk_br3, Cert.KernelIdeal.Payload.tail_eq]
  unfold result Cert.Spec.G
  refine congrArg (fun a => Cert.Spec.tail a _ _ _ _ _ _ _ _ _) ?_
  funext i
  obtain ⟨b, j, rfl⟩ : ∃ (b : Fin 256) (j : Fin 128), i = ix2 b j := ⟨i 0, i 1, eq_ix2 i⟩
  refine (step m c 31 tLast.isLt _ (ix2 b j)).trans ?_
  rw [scratch_after m c (tLast.val - 1) _ (ix2 b j), show tLast.val - 1 + 1 = 31 from rfl, Cert.Spec.hidden_groups,
    Cert.Spec.total_eq (fun s => addend m c s (ix2 b j))]
  refine Finset.sum_congr rfl fun t _ => ?_
  unfold addend
  rw [dif_pos t.isLt]

/-- The one write-back, after the last step, writes that block: block (0, 0) of the [256, 64] array is the array. -/
theorem flushed_eq (c : Dev nD) (t : Fin cfg0.N) (hf : (cfg0.win 12).flush t = true) :
    (dats m 0 c).flushed 12 t = ((cfg0.win 12).blk t).view.read (Elt Ideal) (result m c) := by
  have hN : cfg0.N = 32 := N_0
  have h31 : t.val = 31 := by have := (flush0_12 t).mp hf; have := t.isLt; omega
  obtain rfl : t = tLast := Fin.ext h31
  show (cfg0.win 12).cut (grid0.coords tLast) ((dats m 0 c).after 12 tLast) = _
  rw [after0_12, out_last]
  have hz' : (fun a => win0_12.index tLast a * main_v2.ty.shape.size a) = fun _ => 0 :=
    funext fun a => by fin_cases a <;> decide
  exact (Memref.read_access_unit_zero (Elt Ideal) main_v2 hz' (fun a => by rw [congrFun hz' a]; simp) (result m c)).symm

/-- So the result array ends holding the result: the last point's block covers it. -/
theorem final (c : Dev nD) : (dats m 0 c).arrAt 12 cfg0.N = result m c :=
  (dats m 0 c).arrAt_eq_of_cover 12 (result m c) (flushed_eq m c) fun i =>
    ⟨tLast, (flush0_12 tLast).mpr rfl, by
      show i ∈ ((View.whole main_v2).slice (win0_12.rect tLast)).set
      rw [View.set_slice_whole, Rect.mem_set_unit]
      intro a
      have h0 : (i 0 : Nat) < 256 := (i 0).isLt
      have h1 : (i 1 : Nat) < 64 := (i 1).isLt
      match a with
      | ⟨0, _⟩ =>
        show win0_12.index tLast 0 * win0_12.size 0 ≤ (i 0 : Nat) ∧ (i 0 : Nat) < win0_12.index tLast 0 * win0_12.size 0 + win0_12.xsize (grid0.coords tLast) 0
        rw [show win0_12.index tLast 0 * win0_12.size 0 = 0 from by decide +kernel, show win0_12.xsize (grid0.coords tLast) 0 = 256 from by decide +kernel]; omega
      | ⟨1, _⟩ =>
        show win0_12.index tLast 1 * win0_12.size 1 ≤ (i 1 : Nat) ∧ (i 1 : Nat) < win0_12.index tLast 1 * win0_12.size 1 + win0_12.xsize (grid0.coords tLast) 1
        rw [show win0_12.index tLast 1 * win0_12.size 1 = 0 from by decide +kernel, show win0_12.xsize (grid0.coords tLast) 1 = 64 from by decide +kernel]; omega⟩

end Cert.KernelIdeal.KValue

end
-- ==== Proof.RefValue.lean ====
/-
  The reference program computes the specification.

  The reference masks the input by two comparisons against the per-batch size, flattens each masked matrix into a row
  of 262144 numbers, contracts it with the first weight matrix, and then applies four layers "add a bias row, take the
  larger of each entry and zero, multiply by a matrix" and a last bias. Read one entry at a time this is the
  specification's formula: position d of the flattened row is row d / 512 and column d % 512 of the matrix, the mask bit
  at (b, r, c) is the conjunction of "r below the size of b" and "c below the size of b", and the broadcast zero is the
  zero word.
-/
import proofs.«101094_j88622355186251_2_alg».proof.Proof.Gen.ReferenceIdeal.Read
import proofs.«101094_j88622355186251_2_alg».proof.Proof.Spec

open scoped BigOperators

noncomputable section

namespace Cert.ReferenceIdeal.RefValue

open Cert.ReferenceIdeal Cert.ReferenceIdeal.Read Idealize.ShloMosaic Idealize.ShloMosaic.ValueIdx

/-! ## The mask -/

/-- The comparison "row (or column) number below the size of batch entry b", read at (b, r). -/
theorem cmp_at (x11 : (⟨S256, .i32⟩ : BufTy).Contents (Elt Ideal)) (b : Fin 256) (r : Fin 512) :
    val_main_v5 (F := Ideal) x11 (ix2 b r) = IntOp.cmpi .slt (BitVec.ofNat 32 r.val) (x11 (ix1 b)) := by
  have e : idx_main_v2 (idx_main_v4 (ix2 b r)) = ix1 b := funext fun a => match a with | ⟨0, _⟩ => rfl
  rw [val_main_v5_apply, val_main_v3_apply, val_main_v1_apply, val_main_v0_apply, val_main_v4_apply, val_main_v2_apply, e]

/-- The mask bit at (b, r, c) is the specification's. -/
theorem mask_at (x11 : (⟨S256, .i32⟩ : BufTy).Contents (Elt Ideal)) (b : Fin 256) (r c : Fin 512) :
    val_main_v10 (F := Ideal) x11 (ix3 b r c) = Cert.Spec.keep (x11 (ix1 b)) r.val c.val := by
  have e1 : idx_main_v6 (idx_main_v8 (ix3 b r c)) = ix2 b r :=
    funext fun a => match a with | ⟨0, _⟩ => rfl | ⟨1, _⟩ => rfl
  have e2 : idx_main_v7 (idx_main_v9 (ix3 b r c)) = ix2 b c :=
    funext fun a => match a with | ⟨0, _⟩ => rfl | ⟨1, _⟩ => rfl
  rw [val_main_v10_apply, val_main_v8_apply, val_main_v6_apply, val_main_v9_apply, val_main_v7_apply, e1, e2,
    cmp_at, cmp_at]
  rfl

/-- The masked input at (b, r, c) is the specification's. -/
theorem masked_at (x0 : (⟨S256x512x512, .f32⟩ : BufTy).Contents (Elt Ideal)) (x11 : (⟨S256, .i32⟩ : BufTy).Contents (Elt Ideal))
    (b : Fin 256) (r c : Fin 512) :
    val_main_v11 (F := Ideal) x0 x11 (ix3 b r c) = Cert.Spec.masked x0 x11 b r c := by
  rw [val_main_v11_apply, mask_at, val_main_call0_v0_apply, val_main_cst_apply]
  rfl

/-- The flattened masked input at (b, d) is the masked entry at row d / 512, column d % 512. -/
theorem flat_at (x0 : (⟨S256x512x512, .f32⟩ : BufTy).Contents (Elt Ideal)) (x11 : (⟨S256, .i32⟩ : BufTy).Contents (Elt Ideal))
    (b : Fin 256) (d : Fin 262144) :
    val_main_v12 (F := Ideal) x0 x11 (ix2 b d) = Cert.Spec.masked x0 x11 b (Cert.Spec.rowOf d) (Cert.Spec.colOf d) := by
  have e : idx_main_v12 (ix2 b d) = ix3 b (Cert.Spec.rowOf d) (Cert.Spec.colOf d) := by
    have hb := b.isLt
    have hd := d.isLt
    funext a
    refine Fin.ext ?_
    match a with
    | ⟨0, _⟩ => show (b.val * 262144 + d.val) / 262144 = b.val; omega
    | ⟨1, _⟩ => show (b.val * 262144 + d.val) / 512 % 512 = d.val / 512; omega
    | ⟨2, _⟩ => show (b.val * 262144 + d.val) % 512 = d.val % 512; omega
  rw [val_main_v12_apply, e, masked_at]

/-! ## The first contraction -/

/-- The reference's first contraction is the specification's: term by term, the flattened masked input at (b, d) times
    the weight at (d, j). -/
theorem hidden_eq (x0 : (⟨S256x512x512, .f32⟩ : BufTy).Contents (Elt Ideal)) (x1 : (⟨S262144x128, .f32⟩ : BufTy).Contents (Elt Ideal)) (x11 : (⟨S256, .i32⟩ : BufTy).Contents (Elt Ideal)) :
    val_main_v13 (F := Ideal) x0 x1 x11 = Cert.Spec.hidden x0 x1 x11 := by
  funext i
  obtain ⟨b, j, rfl⟩ : ∃ (b : Fin 256) (j : Fin 128), i = ix2 b j := ⟨i 0, i 1, eq_ix2 i⟩
  rw [val_main_v13_apply]
  show _ = ∑ d : Fin 262144, Cert.Spec.term x0 x1 x11 b j d
  refine Finset.sum_congr rfl fun d _ => ?_
  have el : lidx_main_v13 (ix2 b j) d = ix2 b d :=
    funext fun a => match a with | ⟨0, _⟩ => rfl | ⟨1, _⟩ => rfl
  have er : ridx_main_v13 (ix2 b j) d = ix2 d j :=
    funext fun a => match a with | ⟨0, _⟩ => rfl | ⟨1, _⟩ => rfl
  rw [el, er, flat_at]
  rfl

/-! ## The later layers -/

section Layers

variable (x0 : (⟨S256x512x512, .f32⟩ : BufTy).Contents (Elt Ideal)) (x1 : (⟨S262144x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x256, .f32⟩ : BufTy).Contents (Elt Ideal))
  (x6 : (⟨S256, .f32⟩ : BufTy).Contents (Elt Ideal)) (x7 : (⟨S256x128, .f32⟩ : BufTy).Contents (Elt Ideal))
  (x8 : (⟨S128, .f32⟩ : BufTy).Contents (Elt Ideal)) (x9 : (⟨S128x64, .f32⟩ : BufTy).Contents (Elt Ideal))
  (x10 : (⟨S64, .f32⟩ : BufTy).Contents (Elt Ideal)) (x11 : (⟨S256, .i32⟩ : BufTy).Contents (Elt Ideal))

/-- The first bias, broadcast over the 256 rows, read at (a, j). -/
theorem bias1_at (a : Fin 256) (j : Fin 128) : val_main_v15 (F := Ideal) x2 (ix2 a j) = x2 (ix1 j) := by
  have e : idx_main_v14 (idx_main_v15 (ix2 a j)) = ix1 j := funext fun c => match c with | ⟨0, _⟩ => rfl
  rw [val_main_v15_apply, val_main_v14_apply, e]

/-- The second bias, broadcast over the 256 rows, read at (a, j). -/
theorem bias2_at (a : Fin 256) (j : Fin 128) : val_main_v20 (F := Ideal) x4 (ix2 a j) = x4 (ix1 j) := by
  have e : idx_main_v19 (idx_main_v20 (ix2 a j)) = ix1 j := funext fun c => match c with | ⟨0, _⟩ => rfl
  rw [val_main_v20_apply, val_main_v19_apply, e]

/-- The third bias, broadcast over the 256 rows, read at (a, j). -/
theorem bias3_at (a : Fin 256) (j : Fin 256) : val_main_v25 (F := Ideal) x6 (ix2 a j) = x6 (ix1 j) := by
  have e : idx_main_v24 (idx_main_v25 (ix2 a j)) = ix1 j := funext fun c => match c with | ⟨0, _⟩ => rfl
  rw [val_main_v25_apply, val_main_v24_apply, e]

/-- The fourth bias, broadcast over the 256 rows, read at (a, j). -/
theorem bias4_at (a : Fin 256) (j : Fin 128) : val_main_v30 (F := Ideal) x8 (ix2 a j) = x8 (ix1 j) := by
  have e : idx_main_v29 (idx_main_v30 (ix2 a j)) = ix1 j := funext fun c => match c with | ⟨0, _⟩ => rfl
  rw [val_main_v30_apply, val_main_v29_apply, e]

/-- The last bias, broadcast over the 256 rows, read at (a, j). -/
theorem bias5_at (a : Fin 256) (j : Fin 64) : val_main_v35 (F := Ideal) x10 (ix2 a j) = x10 (ix1 j) := by
  have e : idx_main_v34 (idx_main_v35 (ix2 a j)) = ix1 j := funext fun c => match c with | ⟨0, _⟩ => rfl
  rw [val_main_v35_apply, val_main_v34_apply, e]

/-- Layer 1: the bias row added to the first contraction. -/
theorem add1 : val_main_v16 (F := Ideal) x0 x1 x2 x11 = Cert.Spec.addBias (val_main_v13 (F := Ideal) x0 x1 x11) x2 := by
  funext i
  obtain ⟨a, j, rfl⟩ : ∃ (a : Fin 256) (j : Fin 128), i = ix2 a j := ⟨i 0, i 1, eq_ix2 i⟩
  rw [val_main_v16_apply, bias1_at]
  rfl

/-- Layer 1: the larger of each entry and zero. -/
theorem relu1 : val_main_v17 (F := Ideal) x0 x1 x2 x11 = Cert.Spec.relu (val_main_v16 (F := Ideal) x0 x1 x2 x11) := by
  funext i
  rw [val_main_v17_apply, val_main_call1_v0_apply, val_main_call1_cst_apply]
  rfl

/-- Layer 2: the matrix product. -/
theorem mm2 : val_main_v18 (F := Ideal) x0 x1 x2 x3 x11 = Cert.Spec.mm (val_main_v17 (F := Ideal) x0 x1 x2 x11) x3 := by
  funext i
  obtain ⟨a, j, rfl⟩ : ∃ (a : Fin 256) (j : Fin 128), i = ix2 a j := ⟨i 0, i 1, eq_ix2 i⟩
  rw [val_main_v18_apply]
  show _ = ∑ k : Fin 128, val_main_v17 (F := Ideal) x0 x1 x2 x11 (ix2 a k) * x3 (ix2 k j)
  refine Finset.sum_congr rfl fun k _ => ?_
  have el : lidx_main_v18 (ix2 a j) k = ix2 a k := funext fun c => match c with | ⟨0, _⟩ => rfl | ⟨1, _⟩ => rfl
  have er : ridx_main_v18 (ix2 a j) k = ix2 k j := funext fun c => match c with | ⟨0, _⟩ => rfl | ⟨1, _⟩ => rfl
  rw [el, er]

/-- Layer 2: the bias row. -/
theorem add2 : val_main_v21 (F := Ideal) x0 x1 x2 x3 x4 x11 = Cert.Spec.addBias (val_main_v18 (F := Ideal) x0 x1 x2 x3 x11) x4 := by
  funext i
  obtain ⟨a, j, rfl⟩ : ∃ (a : Fin 256) (j : Fin 128), i = ix2 a j := ⟨i 0, i 1, eq_ix2 i⟩
  rw [val_main_v21_apply, bias2_at]
  rfl

/-- Layer 2: the larger of each entry and zero. -/
theorem relu2 : val_main_v22 (F := Ideal) x0 x1 x2 x3 x4 x11 = Cert.Spec.relu (val_main_v21 (F := Ideal) x0 x1 x2 x3 x4 x11) := by
  funext i
  rw [val_main_v22_apply, val_main_call2_v0_apply, val_main_call2_cst_apply]
  rfl

/-- Layer 3: the matrix product. -/
theorem mm3 : val_main_v23 (F := Ideal) x0 x1 x2 x3 x4 x5 x11 = Cert.Spec.mm (val_main_v22 (F := Ideal) x0 x1 x2 x3 x4 x11) x5 := by
  funext i
  obtain ⟨a, j, rfl⟩ : ∃ (a : Fin 256) (j : Fin 256), i = ix2 a j := ⟨i 0, i 1, eq_ix2 i⟩
  rw [val_main_v23_apply]
  show _ = ∑ k : Fin 128, val_main_v22 (F := Ideal) x0 x1 x2 x3 x4 x11 (ix2 a k) * x5 (ix2 k j)
  refine Finset.sum_congr rfl fun k _ => ?_
  have el : lidx_main_v23 (ix2 a j) k = ix2 a k := funext fun c => match c with | ⟨0, _⟩ => rfl | ⟨1, _⟩ => rfl
  have er : ridx_main_v23 (ix2 a j) k = ix2 k j := funext fun c => match c with | ⟨0, _⟩ => rfl | ⟨1, _⟩ => rfl
  rw [el, er]

/-- Layer 3: the bias row. -/
theorem add3 : val_main_v26 (F := Ideal) x0 x1 x2 x3 x4 x5 x6 x11 = Cert.Spec.addBias (val_main_v23 (F := Ideal) x0 x1 x2 x3 x4 x5 x11) x6 := by
  funext i
  obtain ⟨a, j, rfl⟩ : ∃ (a : Fin 256) (j : Fin 256), i = ix2 a j := ⟨i 0, i 1, eq_ix2 i⟩
  rw [val_main_v26_apply, bias3_at]
  rfl

/-- Layer 3: the larger of each entry and zero. -/
theorem relu3 : val_main_v27 (F := Ideal) x0 x1 x2 x3 x4 x5 x6 x11 = Cert.Spec.relu (val_main_v26 (F := Ideal) x0 x1 x2 x3 x4 x5 x6 x11) := by
  funext i
  rw [val_main_v27_apply, val_main_call3_v0_apply, val_main_call3_cst_apply]
  rfl

/-- Layer 4: the matrix product. -/
theorem mm4 : val_main_v28 (F := Ideal) x0 x1 x2 x3 x4 x5 x6 x7 x11 = Cert.Spec.mm (val_main_v27 (F := Ideal) x0 x1 x2 x3 x4 x5 x6 x11) x7 := by
  funext i
  obtain ⟨a, j, rfl⟩ : ∃ (a : Fin 256) (j : Fin 128), i = ix2 a j := ⟨i 0, i 1, eq_ix2 i⟩
  rw [val_main_v28_apply]
  show _ = ∑ k : Fin 256, val_main_v27 (F := Ideal) x0 x1 x2 x3 x4 x5 x6 x11 (ix2 a k) * x7 (ix2 k j)
  refine Finset.sum_congr rfl fun k _ => ?_
  have el : lidx_main_v28 (ix2 a j) k = ix2 a k := funext fun c => match c with | ⟨0, _⟩ => rfl | ⟨1, _⟩ => rfl
  have er : ridx_main_v28 (ix2 a j) k = ix2 k j := funext fun c => match c with | ⟨0, _⟩ => rfl | ⟨1, _⟩ => rfl
  rw [el, er]

/-- Layer 4: the bias row. -/
theorem add4 : val_main_v31 (F := Ideal) x0 x1 x2 x3 x4 x5 x6 x7 x8 x11 = Cert.Spec.addBias (val_main_v28 (F := Ideal) x0 x1 x2 x3 x4 x5 x6 x7 x11) x8 := by
  funext i
  obtain ⟨a, j, rfl⟩ : ∃ (a : Fin 256) (j : Fin 128), i = ix2 a j := ⟨i 0, i 1, eq_ix2 i⟩
  rw [val_main_v31_apply, bias4_at]
  rfl

/-- Layer 4: the larger of each entry and zero. -/
theorem relu4 : val_main_v32 (F := Ideal) x0 x1 x2 x3 x4 x5 x6 x7 x8 x11 = Cert.Spec.relu (val_main_v31 (F := Ideal) x0 x1 x2 x3 x4 x5 x6 x7 x8 x11) := by
  funext i
  rw [val_main_v32_apply, val_main_call4_v0_apply, val_main_call4_cst_apply]
  rfl

/-- Layer 5: the matrix product. -/
theorem mm5 : val_main_v33 (F := Ideal) x0 x1 x2 x3 x4 x5 x6 x7 x8 x9 x11 = Cert.Spec.mm (val_main_v32 (F := Ideal) x0 x1 x2 x3 x4 x5 x6 x7 x8 x11) x9 := by
  funext i
  obtain ⟨a, j, rfl⟩ : ∃ (a : Fin 256) (j : Fin 64), i = ix2 a j := ⟨i 0, i 1, eq_ix2 i⟩
  rw [val_main_v33_apply]
  show _ = ∑ k : Fin 128, val_main_v32 (F := Ideal) x0 x1 x2 x3 x4 x5 x6 x7 x8 x11 (ix2 a k) * x9 (ix2 k j)
  refine Finset.sum_congr rfl fun k _ => ?_
  have el : lidx_main_v33 (ix2 a j) k = ix2 a k := funext fun c => match c with | ⟨0, _⟩ => rfl | ⟨1, _⟩ => rfl
  have er : ridx_main_v33 (ix2 a j) k = ix2 k j := funext fun c => match c with | ⟨0, _⟩ => rfl | ⟨1, _⟩ => rfl
  rw [el, er]

/-- Layer 5: the bias row. -/
theorem add5 : val_main_v36 (F := Ideal) x0 x1 x2 x3 x4 x5 x6 x7 x8 x9 x10 x11 = Cert.Spec.addBias (val_main_v33 (F := Ideal) x0 x1 x2 x3 x4 x5 x6 x7 x8 x9 x11) x10 := by
  funext i
  obtain ⟨a, j, rfl⟩ : ∃ (a : Fin 256) (j : Fin 64), i = ix2 a j := ⟨i 0, i 1, eq_ix2 i⟩
  rw [val_main_v36_apply, bias5_at]
  rfl

end Layers

/-! ## The whole reference -/

/-- The reference's result is the specification's: the first contraction followed by the layers, one after the other. -/
theorem ref_is_G (x0 : (⟨S256x512x512, .f32⟩ : BufTy).Contents (Elt Ideal)) (x1 : (⟨S262144x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal)) (x9 : (⟨S128x64, .f32⟩ : BufTy).Contents (Elt Ideal)) (x10 : (⟨S64, .f32⟩ : BufTy).Contents (Elt Ideal)) (x11 : (⟨S256, .i32⟩ : BufTy).Contents (Elt Ideal)) :
    val_main_v36 (F := Ideal) x0 x1 x2 x3 x4 x5 x6 x7 x8 x9 x10 x11 = Cert.Spec.G x0 x1 x2 x3 x4 x5 x6 x7 x8 x9 x10 x11 := by
  rw [add5, mm5, relu4, add4, mm4, relu3, add3, mm3, relu2, add2, mm2, relu1, add1, hidden_eq]
  rfl

end Cert.ReferenceIdeal.RefValue

end
-- ==== Proof.lean ====
/-
  A masked set-MLP. For each of 256 batch entries b, the 512 x 512 matrix x[b] is zeroed outside the leading
  sizes[b] x sizes[b] corner (signed comparison of the row and of the column number against sizes[b]), flattened
  to a row of 262144 numbers, and sent through five affine layers, the first four followed by max(., 0):
    h1 = relu(xm . W1 + b1),  h2 = relu(h1 . W2 + b2),  h3 = relu(h2 . Wr1 + br1),  h4 = relu(h3 . Wr2 + br2),
    out = h4 . Wr3 + br3.
  The kernel walks the 512 rows in 32 groups of 16: at group r it masks the block x[:, 16r .. 16r+15, :],
  contracts its 8192 columns against rows 8192 r .. 8192 r + 8191 of W1 and adds the product to an accumulator
  that it zeroes at r = 0; at r = 31 it runs the four remaining layers on the accumulator. The reference
  contracts all 262144 columns at once. On the extended reals addition is commutative and associative, so the sum
  over 262144 terms is the sum over the 32 groups of the sums over 8192 terms; everything else is the same
  operation on both sides (a change of float format is the identity at the exact instance). No finiteness of the
  inputs is used: the two sides add the same terms.

  Both runs are stated at one function of the argument arrays (Spec.lean): the kernel's result array after its run
  (KernelValue.lean, over the body's arithmetic in KernelPayload.lean, the blocks each grid step reads in BlockReads.lean
  and what each case of the body leaves in KernelPieces.lean) and the reference's result (RefValue.lean).
-/
import proofs.«101094_j88622355186251_2_alg».proof.Defs
import proofs.«101094_j88622355186251_2_alg».proof.Proof.Gen.Kernel
import proofs.«101094_j88622355186251_2_alg».proof.Proof.Gen.Kernel.Skeleton
import proofs.«101094_j88622355186251_2_alg».proof.Proof.Gen.Kernel.Launch
import proofs.«101094_j88622355186251_2_alg».proof.Proof.Gen.Kernel.Points
import proofs.«101094_j88622355186251_2_alg».proof.Proof.Gen.Kernel.Frame
import proofs.«101094_j88622355186251_2_alg».proof.Proof.Gen.KernelIdeal
import proofs.«101094_j88622355186251_2_alg».proof.Proof.Gen.KernelIdeal.Skeleton
import proofs.«101094_j88622355186251_2_alg».proof.Proof.Gen.KernelIdeal.Launch
import proofs.«101094_j88622355186251_2_alg».proof.Proof.Gen.KernelIdeal.Points
import proofs.«101094_j88622355186251_2_alg».proof.Proof.Gen.KernelIdeal.Frame
import proofs.«101094_j88622355186251_2_alg».proof.Proof.Gen.KernelIdeal.Value
import proofs.«101094_j88622355186251_2_alg».proof.Proof.Gen.ReferenceIdeal
import proofs.«101094_j88622355186251_2_alg».proof.Proof.Gen.ReferenceIdeal.Run
import proofs.«101094_j88622355186251_2_alg».proof.Proof.Gen.ReferenceIdeal.Read
import proofs.«101094_j88622355186251_2_alg».proof.Proof.Gen.Pre_finite_inputs
import proofs.«101094_j88622355186251_2_alg».proof.Proof.Spec
import proofs.«101094_j88622355186251_2_alg».proof.Proof.KernelValue
import proofs.«101094_j88622355186251_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel :=
  fun m ρ _ => Cert.Kernel.Gen.frame m ρ

/-- So does the kernel read over the extended reals. -/
theorem frame_ki : Cert.frame_KernelIdeal :=
  fun m ρ _ => Cert.KernelIdeal.Gen.frame m ρ

/-- The reference is a straight line of host operations: its run, with the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From memories that agree on the arguments, the kernel's result array ends at the masked set-MLP of the arguments
    (the accumulated first contraction, then the remaining layers) and the reference's result at the same function. -/
theorem algebraic : Cert.algebraic_KernelIdeal_ReferenceIdeal := by
  intro m ρ m' ρ' _ hagree
  refine ⟨fun c => Cert.KernelIdeal.KValue.result m c, ?_, ?_⟩
  · exact (θ_run Cert.KernelIdeal.defs _ _).mono
      (fun r h c => ⟨(h c).1.trans (Cert.KernelIdeal.KValue.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    show Cert.ReferenceIdeal.Read.val_main_v36 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11)) = _
    rw [Cert.ReferenceIdeal.RefValue.ref_is_G, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
